-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x3200000 : Shape := ⟨2, ![2, 3200000]⟩
abbrev S3200000 : Shape := ⟨1, ![3200000]⟩
abbrev S30x64 : Shape := ⟨2, ![30, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S30x64 : S_.BroadcastsInDim S30x64 (![] : Fin 0 → Fin S30x64.rank)
  reducesTo_S30x64_S_d0_1 : S30x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x30 .f32) (main_arg1 : IVec S2x3200000 32) (main_arg2 : FVec F S3200000 .f32) (main_arg3 : FVec F S30x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S30x64 .f32 := Host.absf main_arg3
  let main_cst_2 : FVec F S_ .f32 := constant S_ .f32 0x7F800000#32
  let main_v10 : FVec F S30x64 .f32 := broadcastInDim S30x64 ![] bcast_S_S30x64 main_cst_2
  let main_v11 : IVec S30x64 1 := cmpf .olt main_v9 main_v10
  let main_c_3 : IVec S_ 1 := constantI S_ 1 1#1
  let main_v12 : IVec S_ 1 := (fun x v => Host.reduce IntOp.andi x v reducesTo_S30x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x30 : Shape := ⟨2, ![100000, 30]⟩
abbrev S2x3200000 : Shape := ⟨2, ![2, 3200000]⟩
abbrev S3200000 : Shape := ⟨1, ![3200000]⟩
abbrev S30x64 : Shape := ⟨2, ![30, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x30 : Shape := ⟨2, ![10000, 30]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 110
  | .vmem => 30
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x64, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x1, .f32⟩
  | .hbm, ⟨65, _⟩ => ⟨S3300000x64, .f32⟩
  | .hbm, ⟨66, _⟩ => ⟨S3300000x64, .f32⟩
  | .hbm, ⟨67, _⟩ => ⟨S_, .f32⟩
  | .hbm, ⟨68, _⟩ => ⟨S100000x64, .f32⟩
  | .hbm, ⟨69, _⟩ => ⟨S3300000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x64, .f32⟩
  | .hbm, ⟨83, _⟩ => ⟨S3300000x1, .f32⟩
  | .hbm, ⟨84, _⟩ => ⟨S3300000x64, .f32⟩
  | .hbm, ⟨85, _⟩ => ⟨S3300000x64, .f32⟩
  | .hbm, ⟨86, _⟩ => ⟨S_, .f32⟩
  | .hbm, ⟨87, _⟩ => ⟨S100000x64, .f32⟩
  | .hbm, ⟨88, _⟩ => ⟨S3300000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x1, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000x1, .f32⟩
  | .hbm, ⟨102, _⟩ => ⟨S3300000x1, .f32⟩
  | .hbm, ⟨103, _⟩ => ⟨S3300000x1, .f32⟩
  | .hbm, ⟨104, _⟩ => ⟨S_, .f32⟩
  | .hbm, ⟨105, _⟩ => ⟨S100000x1, .f32⟩
  | .hbm, ⟨106, _⟩ => ⟨S3300000x1, .i32⟩
  | .hbm, ⟨107, _⟩ => ⟨S100000x1, .f32⟩
  | .hbm, ⟨108, _⟩ => ⟨S1x1, .f32⟩
  | .hbm, ⟨109, _⟩ => ⟨S100000x1, .f32⟩
  | .local _ .vmem, ⟨0, _⟩ => ⟨S10000x30, .f32⟩
  | .local _ .vmem, ⟨1, _⟩ => ⟨S10000x30, .f32⟩
  | .local _ .vmem, ⟨2, _⟩ => ⟨S30x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x30_S10000x30_0_0 : ∀ a, (![0, 0] : Fin 2 → Nat) a + S10000x30.size a ≤ S10000x30.size a
  h_S10000x30 : 0 < S10000x30.numel
  bitsLt_bf16_f32 : FTy.bits .bf16 < FTy.bits .f32
  inb_S30x64_S30x64_0_0 : ∀ a, (![0, 0] : Fin 2 → Nat) a + S30x64.size a ≤ S30x64.size a
  h_S30x64 : 0 < S30x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x30_S30x64_S10000x64_1_0_0_1_n_n_wf : DotDims.WF S10000x30 S30x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x30.size a ≤ S100000x30.size a
  hwx0_0 : ∀ i : grid0.Coords, EltTy.bits .f32 = 32 ∨ (Rect.block (s := S100000x30) S10000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x64.size a ≤ S30x64.size a
  hwx0_1 : ∀ i : grid0.Coords, EltTy.bits .f32 = 32 ∨ (Rect.block (s := S30x64) S30x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x30_S30x64_S10000x64_1_0_0_1_n_n : DotDims S10000x30 S30x64 S10000x64 where
  lhsContracting := [1]
  rhsContracting := [0]
  lhsNonContracting := [0]
  rhsNonContracting := [1]
  lhsBatch := []
  rhsBatch := []
  wf := dot_S10000x30_S30x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x30 : Shape := ⟨2, ![100000, 30]⟩
abbrev S2x3200000 : Shape := ⟨2, ![2, 3200000]⟩
abbrev S3200000 : Shape := ⟨1, ![3200000]⟩
abbrev S30x64 : Shape := ⟨2, ![30, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x64, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .f32⟩
  | .hbm, ⟨64, _⟩ => ⟨S3300000x1, .f32⟩
  | .hbm, ⟨65, _⟩ => ⟨S3300000x64, .f32⟩
  | .hbm, ⟨66, _⟩ => ⟨S3300000x64, .f32⟩
  | .hbm, ⟨67, _⟩ => ⟨S_, .f32⟩
  | .hbm, ⟨68, _⟩ => ⟨S100000x64, .f32⟩
  | .hbm, ⟨69, _⟩ => ⟨S3300000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x64, .f32⟩
  | .hbm, ⟨87, _⟩ => ⟨S3300000x1, .f32⟩
  | .hbm, ⟨88, _⟩ => ⟨S3300000x64, .f32⟩
  | .hbm, ⟨89, _⟩ => ⟨S3300000x64, .f32⟩
  | .hbm, ⟨90, _⟩ => ⟨S_, .f32⟩
  | .hbm, ⟨91, _⟩ => ⟨S100000x64, .f32⟩
  | .hbm, ⟨92, _⟩ => ⟨S3300000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S100000x1, .f32⟩
  | .hbm, ⟨101, _⟩ => ⟨S_, .i32⟩
  | .hbm, ⟨102, _⟩ => ⟨S3300000, .i32⟩
  | .hbm, ⟨103, _⟩ => ⟨S3300000, .i1⟩
  | .hbm, ⟨104, _⟩ => ⟨S_, .i32⟩
  | .hbm, ⟨105, _⟩ => ⟨S3300000, .i32⟩
  | .hbm, ⟨106, _⟩ => ⟨S3300000, .i32⟩
  | .hbm, ⟨107, _⟩ => ⟨S3300000, .i32⟩
  | .hbm, ⟨108, _⟩ => ⟨S3300000x1, .i32⟩
  | .hbm, ⟨109, _⟩ => ⟨S3300000x1, .f32⟩
  | .hbm, ⟨110, _⟩ => ⟨S3300000x1, .f32⟩
  | .hbm, ⟨111, _⟩ => ⟨S3300000x1, .f32⟩
  | .hbm, ⟨112, _⟩ => ⟨S_, .f32⟩
  | .hbm, ⟨113, _⟩ => ⟨S100000x1, .f32⟩
  | .hbm, ⟨114, _⟩ => ⟨S3300000x1, .i32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .hbm, ⟨119, _⟩ => ⟨S_, .f32⟩
  | .hbm, ⟨120, _⟩ => ⟨S100000x1, .f32⟩
  | .hbm, ⟨121, _⟩ => ⟨S100000x1, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call3_cst : Ref sig .tc := ⟨.hbm, 119, rfl⟩
abbrev main_call3_v0 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x30_S30x64_S100000x64_1_0_0_1_n_n_wf : DotDims.WF S100000x30 S30x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x30_S30x64_S100000x64_1_0_0_1_n_n : DotDims S100000x30 S30x64 S100000x64 where
  lhsContracting := [1]
  rhsContracting := [0]
  lhsNonContracting := [0]
  rhsNonContracting := [1]
  lhsBatch := []
  rhsBatch := []
  wf := dot_S100000x30_S30x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.RunValue.lean ====
/-
  The idealized kernel's run with its result named. The program is six tiled regions among stretches of host
  operations; its frame run threads the TensorCore's buffer contents through the twelve segments, so at the return every
  unscoped buffer holds the last boundary's contents `Gen.W12`. The frame claim reads only the argument buffers out of
  that state; read at the result buffer as well, the same run says that the result array ends at `Gen.W12` of its
  reference, which the value lemmas then open region by region and stretch by stretch.
-/
import proofs.«132465_j2911987826950_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_value : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.Spec.lean ====
/-
  The two whole-array functions a layer of this graph network applies between its edge aggregations, entry by entry on
  the extended reals, for any extents.

  `dense x w` is the matrix product x · W of an M × K matrix and a K × N matrix: its entry at row r and column q is the
  exact finite sum over the contracted coordinate k of x(r, k) · w(k, q). `biasRelu a b` adds a one-row matrix b to every
  row of an M × N matrix a and takes the maximum with zero: its entry at (r, q) is max (a(r, q) + b(0, q)) 0, the zero
  written as the f32 word of 0.0 so that neither side of a comparison ever has to evaluate it. Nothing here depends on a
  program.
-/
import Idealize.ShloMosaic.PureOps.Ideal
import Idealize.ShloMosaic.Lib.ValueIdx

noncomputable section

namespace Cert.Gcn

open Idealize.ShloMosaic Idealize.ShloMosaic.ValueIdx

/-- The matrix product, entry by entry: (x · w)(r, q) = Σ_k x(r, k) · w(k, q). -/
def dense {M K N : Nat} (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

theorem dense_apply {M K N : Nat} (x : FVec Ideal ⟨2, ![M, K]⟩ .f32) (w : FVec Ideal ⟨2, ![K, N]⟩ .f32)
    (i : (⟨2, ![M, N]⟩ : Shape).Idx) : dense x w i = ∑ k : Fin K, x (ix2 (i 0) k) * w (ix2 k (i 1)) := rfl

/-- A one-row matrix added to every row, then the maximum with zero: max (a(r, q) + b(0, q)) 0. -/
def biasRelu {M N : Nat} (a : FVec Ideal ⟨2, ![M, N]⟩ .f32) (b : FVec Ideal ⟨2, ![1, N]⟩ .f32) :
    FVec Ideal ⟨2, ![M, N]⟩ .f32 :=
  fun i => max (a i + b (ix2 (0 : Fin 1) (i 1))) (Ideal.ofBits .f32 0x00000000#32)

theorem biasRelu_apply {M N : Nat} (a : FVec Ideal ⟨2, ![M, N]⟩ .f32) (b : FVec Ideal ⟨2, ![1, N]⟩ .f32)
    (i : (⟨2, ![M, N]⟩ : Shape).Idx) :
    biasRelu a b i = max (a i + b (ix2 (0 : Fin 1) (i 1))) (Ideal.ofBits .f32 0x00000000#32) := rfl

end Cert.Gcn

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«132465_j2911987826950_1_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.RefStages.lean ====
/-
  The reference's six dense and bias-plus-relu stages, each as one of the two whole-array functions of a layer, and its
  three bias rows.

  A layer of the reference multiplies the node features by a weight matrix (a `dot_general` contracting the left
  operand's columns with the right operand's rows), aggregates over the edges, then adds the bias and clamps at zero. At
  the ideal values the product is the exact finite sum, so the stage is `Cert.Gcn.dense` of its two operands: both read
  at row r and column q as Σ_k x(r, k) · w(k, q). The bias is a vector laid out as a one-row matrix, that row broadcast
  down the rows, added, and the maximum taken with the zero scalar broadcast to the whole array; entry (r, q) is
  max (a(r, q) + b(0, q)) 0, which is `Cert.Gcn.biasRelu` of the aggregated array a and the one-row matrix b
  (`biasRelu_host`, for any extents). The zero stays the f32 word of 0.0 on both sides and is never evaluated, and the
  aggregated arrays (a gather and a scatter-add over the edge list) enter only as opaque arrays: nothing here looks
  inside them. No finiteness hypothesis is needed: only exact sums, one addition and one maximum are compared.

  The bias rows: a vector of n entries recast as a one-row matrix is that vector broadcast along axis 1 into one row,
  both reading entry k at (0, k).
-/
import proofs.«132465_j2911987826950_1_alg».proof.Proof.Gen.ReferenceIdeal.Read
import proofs.«132465_j2911987826950_1_alg».proof.Proof.Spec
import proofs.«132465_j2911987826950_1_alg».proof.Proof.LibMatmulAt
import proofs.«132465_j2911987826950_1_alg».proof.Proof.LibAffineAt

noncomputable section

namespace Cert.ReferenceIdeal.RefValue

open Cert.ReferenceIdeal Cert.ReferenceIdeal.Gen Cert.ReferenceIdeal.Read Idealize.ShloMosaic Idealize.ShloMosaic.ValueIdx

/-- The host's spelling of bias plus relu, for any extents: the one-row matrix b broadcast down the M rows and added to
    a, then the maximum with the zero scalar broadcast to the whole array, is `biasRelu a b`; entry (r, q) of both is
    max (a(r, q) + b(0, q)) 0. -/
theorem biasRelu_host {M N : Nat}
    (hrow : (⟨2, ![1, N]⟩ : Shape).BroadcastsInDim ⟨2, ![M, N]⟩ ![0, 1])
    (hzero : (⟨0, ![]⟩ : Shape).BroadcastsInDim ⟨2, ![M, N]⟩ (![] : Fin 0 → Fin 2))
    (a : FVec Ideal ⟨2, ![M, N]⟩ .f32) (b : FVec Ideal ⟨2, ![1, N]⟩ .f32) :
    maximumf (addf a (broadcastInDim ⟨2, ![M, N]⟩ ![0, 1] hrow b))
        (broadcastInDim ⟨2, ![M, N]⟩ ![] hzero (constant (F := Ideal) ⟨0, ![]⟩ .f32 0x00000000#32))
      = Cert.Gcn.biasRelu a b := by
  funext i
  obtain ⟨r, q, rfl⟩ : ∃ (r : Fin M) (q : Fin N), i = ix2 r q := ⟨i 0, i 1, eq_ix2 i⟩
  refine (maximumf_apply _ _ _).trans ?_
  refine congrArg₂ max ?_ ?_
  · refine (addf_apply _ _ _).trans ?_
    exact congrArg (a (ix2 r q) + ·) (broadcastInDim_oneRow_apply hrow b r q)
  · exact (broadcastInDim_apply ![] hzero _ (ix2 r q) ix0 (fun e => e.elim0)).trans (constant_apply _ _)

/-! ## Layer 1 -/

/-- The first product: the node features times the first weight matrix. -/
theorem v34_eq (x0 : (⟨S100000x30, .f32⟩ : BufTy).Contents (Elt Ideal)) (x3 : (⟨S30x64, .f32⟩ : BufTy).Contents (Elt Ideal)) :
    val_main_v34 (F := Ideal) x0 x3 = Cert.Gcn.dense (M := 100000) (K := 30) (N := 64) x0 x3 := by
  unfold val_main_v34
  funext i
  exact Cert.KernelIdeal.Hand.dotGeneral_plain_apply' dot_S100000x30_S30x64_S100000x64_1_0_0_1_n_n rfl none x0 x3 i

/-- The first bias row: the vector recast as a one-row matrix is the reference's broadcast along axis 1. -/
theorem v48_cast (x4 : (⟨S64, .f32⟩ : BufTy).Contents (Elt Ideal)) (h : S64.ShapeCasts S1x64) :
    shapeCast S1x64 x4 h = val_main_v48 (F := Ideal) x4 := by
  unfold val_main_v48
  exact Cert.LibAffineAt.rowCast_eq x4 h bcast_S64_S1x64_1

/-- The first bias plus relu, of the first aggregated array and the first bias row. -/
theorem v51_eq (x0 : (⟨S100000x30, .f32⟩ : BufTy).Contents (Elt Ideal)) (x1 : (⟨S2x3200000, .i32⟩ : BufTy).Contents (Elt Ideal))
    (x2 : (⟨S3200000, .f32⟩ : BufTy).Contents (Elt Ideal)) (x3 : (⟨S30x64, .f32⟩ : BufTy).Contents (Elt Ideal))
    (x4 : (⟨S64, .f32⟩ : BufTy).Contents (Elt Ideal)) :
    val_main_v51 (F := Ideal) x0 x1 x2 x3 x4
      = Cert.Gcn.biasRelu (M := 100000) (N := 64) (val_main_v47 (F := Ideal) x0 x1 x2 x3) (val_main_v48 (F := Ideal) x4) := by
  unfold val_main_v51 val_main_v50 val_main_v49 val_main_call1_v0 val_main_call1_cst
  generalize val_main_v47 (F := Ideal) x0 x1 x2 x3 = a
  generalize val_main_v48 (F := Ideal) x4 = b
  exact biasRelu_host (M := 100000) (N := 64) bcast_S1x64_S100000x64_0_1 bcast_S_S100000x64 a b

/-! ## Layer 2 -/

/-- The second product: the first layer's output times the second weight matrix. -/
theorem v52_eq (x0 : (⟨S100000x30, .f32⟩ : BufTy).Contents (Elt Ideal)) (x1 : (⟨S2x3200000, .i32⟩ : BufTy).Contents (Elt Ideal))
    (x2 : (⟨S3200000, .f32⟩ : BufTy).Contents (Elt Ideal)) (x3 : (⟨S30x64, .f32⟩ : BufTy).Contents (Elt Ideal))
    (x4 : (⟨S64, .f32⟩ : BufTy).Contents (Elt Ideal)) (x5 : (⟨S64x64, .f32⟩ : BufTy).Contents (Elt Ideal)) :
    val_main_v52 (F := Ideal) x0 x1 x2 x3 x4 x5
      = Cert.Gcn.dense (M := 100000) (K := 64) (N := 64) (val_main_v51 (F := Ideal) x0 x1 x2 x3 x4) x5 := by
  unfold val_main_v52
  generalize val_main_v51 (F := Ideal) x0 x1 x2 x3 x4 = a
  funext i
  exact Cert.KernelIdeal.Hand.dotGeneral_plain_apply' dot_S100000x64_S64x64_S100000x64_1_0_0_1_n_n rfl none a x5 i

/-- The second bias row. -/
theorem v66_cast (x6 : (⟨S64, .f32⟩ : BufTy).Contents (Elt Ideal)) (h : S64.ShapeCasts S1x64) :
    shapeCast S1x64 x6 h = val_main_v66 (F := Ideal) x6 := by
  unfold val_main_v66
  exact Cert.LibAffineAt.rowCast_eq x6 h bcast_S64_S1x64_1

/-- The second bias plus relu, of the second aggregated array and the second bias row. -/
theorem v69_eq (x0 : (⟨S100000x30, .f32⟩ : BufTy).Contents (Elt Ideal)) (x1 : (⟨S2x3200000, .i32⟩ : BufTy).Contents (Elt Ideal))
    (x2 : (⟨S3200000, .f32⟩ : BufTy).Contents (Elt Ideal)) (x3 : (⟨S30x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v69 (F := Ideal) x0 x1 x2 x3 x4 x5 x6
      = Cert.Gcn.biasRelu (M := 100000) (N := 64) (val_main_v65 (F := Ideal) x0 x1 x2 x3 x4 x5) (val_main_v66 (F := Ideal) x6) := by
  unfold val_main_v69 val_main_v68 val_main_v67 val_main_call2_v0 val_main_call2_cst
  generalize val_main_v65 (F := Ideal) x0 x1 x2 x3 x4 x5 = a
  generalize val_main_v66 (F := Ideal) x6 = b
  exact biasRelu_host (M := 100000) (N := 64) bcast_S1x64_S100000x64_0_1 bcast_S_S100000x64 a b

/-! ## Layer 3 -/

/-- The third product: the second layer's output times the one-column third weight matrix. -/
theorem v70_eq (x0 : (⟨S100000x30, .f32⟩ : BufTy).Contents (Elt Ideal)) (x1 : (⟨S2x3200000, .i32⟩ : BufTy).Contents (Elt Ideal))
    (x2 : (⟨S3200000, .f32⟩ : BufTy).Contents (Elt Ideal)) (x3 : (⟨S30x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x1, .f32⟩ : BufTy).Contents (Elt Ideal)) :
    val_main_v70 (F := Ideal) x0 x1 x2 x3 x4 x5 x6 x7
      = Cert.Gcn.dense (M := 100000) (K := 64) (N := 1) (val_main_v69 (F := Ideal) x0 x1 x2 x3 x4 x5 x6) x7 := by
  unfold val_main_v70
  generalize val_main_v69 (F := Ideal) x0 x1 x2 x3 x4 x5 x6 = a
  funext i
  exact Cert.KernelIdeal.Hand.dotGeneral_plain_apply' dot_S100000x64_S64x1_S100000x1_1_0_0_1_n_n rfl none a x7 i

/-- The third bias row: a one-entry vector recast as a one-by-one matrix. -/
theorem v83_cast (x8 : (⟨S1, .f32⟩ : BufTy).Contents (Elt Ideal)) (h : S1.ShapeCasts S1x1) :
    shapeCast S1x1 x8 h = val_main_v83 (F := Ideal) x8 := by
  unfold val_main_v83
  exact Cert.LibAffineAt.rowCast_eq x8 h bcast_S1_S1x1_1

/-- The third bias plus relu, of the third aggregated array and the third bias row: the reference's result. -/
theorem v86_eq (x0 : (⟨S100000x30, .f32⟩ : BufTy).Contents (Elt Ideal)) (x1 : (⟨S2x3200000, .i32⟩ : BufTy).Contents (Elt Ideal))
    (x2 : (⟨S3200000, .f32⟩ : BufTy).Contents (Elt Ideal)) (x3 : (⟨S30x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x1, .f32⟩ : BufTy).Contents (Elt Ideal))
    (x8 : (⟨S1, .f32⟩ : BufTy).Contents (Elt Ideal)) :
    val_main_v86 (F := Ideal) x0 x1 x2 x3 x4 x5 x6 x7 x8
      = Cert.Gcn.biasRelu (M := 100000) (N := 1) (val_main_v82 (F := Ideal) x0 x1 x2 x3 x4 x5 x6 x7) (val_main_v83 (F := Ideal) x8) := by
  unfold val_main_v86 val_main_v85 val_main_v84 val_main_call3_v0 val_main_call3_cst
  generalize val_main_v82 (F := Ideal) x0 x1 x2 x3 x4 x5 x6 x7 = a
  generalize val_main_v83 (F := Ideal) x8 = b
  exact biasRelu_host (M := 100000) (N := 1) bcast_S1x1_S100000x1_0_1 bcast_S_S100000x1 a b

end Cert.ReferenceIdeal.RefValue

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.Region0.lean ====
/-
  The first dense product of the network, block by block: the 100000 × 64 result is X · W for the 100000 × 30 matrix X and
  the 30 × 64 matrix W the region is entered with.

  The rows are cut into ten blocks of 10000. Grid point t holds rows 10000·t … 10000·t + 9999 of X (all 30 columns), the
  whole of W, and writes rows 10000·t … 10000·t + 9999 of the result (all 64 columns). Inside a block the entry at local
  row p and column q is the exact sum over k < 30 of X(10000·t + p, k) · W(k, q): the roundings of both operands to bf16 are the identity on the
  extended reals, and the accumulator starts at zero. So an entry of the result depends on one row of X and one column of W,
  both inside what the point holds, and the ten row blocks tile the array: row r is written by point r / 10000.
-/
import proofs.«132465_j2911987826950_1_alg».proof.Proof.Gen.KernelIdeal.Frame
import proofs.«132465_j2911987826950_1_alg».proof.Proof.Spec
import proofs.«132465_j2911987826950_1_alg».proof.Proof.LibMatmulAt
import Idealize.ShloMosaic.Lib.Pipeline.Value

set_option maxRecDepth 16384
noncomputable section
namespace Cert.KernelIdeal.RegionValue
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets0 : (![0, 0] : Fin 2 → Nat) = fun _ => 0 := funext fun a => by fin_cases a <;> rfl

/-- One block's product at an entry, for ANY block contents: the sum over the contracted coordinate of the products of
    the left block's row p and the right block's column q. -/
theorem blockProduct0_apply (x : Vec Ideal S10000x30 .f32) (w : Vec Ideal S30x64 .f32) (p : Fin 10000) (q : Fin 64) :
    k0_pay1 x w (ix2 p q) = ∑ k : Fin 30, x (ix2 p k) * w (ix2 k q) := by
  unfold k0_pay1
  refine (Cert.KernelIdeal.Hand.matmul_zero_plain_apply _ rfl none _ _ (ix2 p q)).trans ?_
  rfl

/-- The block indices at grid point t: the left operand's and the result's row block is t, the column block 0; the right
    operand's block is (0, 0) at every point. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of X · W. -/
theorem writtenBack0_eq (c : Dev nD) (t : Fin cfg0.N) :
    (dat0 V c).flushed 2 t = ((cfg0.win 2).blk t).view.read (Elt Ideal)
      (Cert.Gcn.dense (M := 100000) (K := 30) (N := 64) (V c main_arg0) (V c main_arg3)) := by
  show (cfg0.win 2).cut (grid0.coords t) ((dat0 V c).after 2 t) = _
  rw [after0_2]
  unfold out0_2
  rw [View.canon_unit_zero zero_offsets0]
  simp only [View.ld_unit_zero (S := S10000x30) zero_offsets0, View.ld_unit_zero (S := S30x64) zero_offsets0]
  obtain ⟨e00, e01, e10, e11, e20, e21⟩ := blockIndex0 t
  funext y
  obtain ⟨p, q, rfl⟩ : ∃ (p : Fin 10000) (q : Fin 64), y = ix2 p q := ⟨y 0, y 1, eq_ix2 y⟩
  show k0_pay1 (iblk0 V c 0 t) (iblk0 V c 1 t) (ix2 p q)
    = Cert.Gcn.dense (M := 100000) (K := 30) (N := 64) (V c main_arg0) (V c main_arg3) (((cfg0.win 2).blk t).view.emb (ix2 p q))
  rw [blockProduct0_apply, Cert.Gcn.dense_apply]
  refine Finset.sum_congr rfl fun k _ => ?_
  -- the left block's entry (p, k) is X at the result's row and column k
  have hx : iblk0 V c 0 t (ix2 p k) = V c main_arg0 (ix2 (((cfg0.win 2).blk t).view.emb (ix2 p q) 0) k) := by
    show V c main_arg0 (((cfg0.win 0).blk t).view.emb (ix2 p k)) = _
    congr 1
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 30 + 1 * k.val = k.val; omega
  -- the right block's entry (k, q) is W at row k and the result's column
  have hw : iblk0 V c 1 t (ix2 k q) = V c main_arg3 (ix2 k (((cfg0.win 2).blk t).view.emb (ix2 p q) 1)) := by
    show V c main_arg3 (((cfg0.win 1).blk t).view.emb (ix2 k q)) = _
    congr 1
    funext a; apply Fin.ext
    match a with
    | ⟨0, _⟩ => show win0_1.index t (0 : Fin 2) * 30 + 1 * k.val = k.val; omega
    | ⟨1, _⟩ => show win0_1.index t (1 : Fin 2) * 64 + 1 * q.val = win0_2.index t (1 : Fin 2) * 64 + 1 * q.val; omega
  rw [hx, hw]

/-- An index of the result is in point t's block iff each coordinate is in the block's range on its axis. -/
theorem mem_rowBlock0 (t : Fin cfg0.N) (i : (⟨2, ![100000, 64]⟩ : Shape).Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v34).slice (win0_2.rect t)).set ↔ _
  rw [View.set_slice_whole, Rect.mem_set_unit]
  exact Iff.rfl

/-- The ten row blocks tile the result: row r is in the block of point r / 10000, which writes back. -/
theorem rowBlocks_cover0 (i : (⟨2, ![100000, 64]⟩ : Shape).Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e20, e21⟩ := blockIndex0 t
  refine ⟨t, flush0_2 t, ?_⟩
  rw [mem_rowBlock0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the region is X · W of the two arrays the region is entered with. -/
theorem region0_out (c : Dev nD) :
    (dat0 V c).arrAt 2 cfg0.N = Cert.Gcn.dense (M := 100000) (K := 30) (N := 64) (V c main_arg0) (V c main_arg3) :=
  (dat0 V c).arrAt_eq_of_cover 2 _ (fun t _ => writtenBack0_eq V c t) rowBlocks_cover0

end Cert.KernelIdeal.RegionValue
end
-- ==== Proof.Region1.lean ====
/-
  The first bias-and-rectifier step of the network, read off its tiled form: the whole output array, entry by entry.

  The step works on a 100000 × 64 array a and a one-row array b of 64 entries. It is cut along the rows into ten
  blocks of 10000 rows; block t holds rows 10000 t … 10000 t + 9999 and all 64 columns, and the one row of b is the
  same block at every step. On a block x the arithmetic is max (x + b laid along every row) 0, so the entry at row p and
  column q of block t depends on exactly two numbers: a(10000 t + p, q) and b(0, q). Block t of the result is written to
  the same rows of the output array. The ten blocks tile the rows (row r lies in block r / 10000), so after the last
  block the output array is max (a(r, q) + b(0, q)) 0 at every (r, q), whatever it held before. Only + and max on the
  extended reals occur, so nothing has to be finite.
-/
import proofs.«132465_j2911987826950_1_alg».proof.Proof.Gen.KernelIdeal.Frame
import proofs.«132465_j2911987826950_1_alg».proof.Proof.Spec
import proofs.«132465_j2911987826950_1_alg».proof.Proof.LibAffineAt
import Idealize.ShloMosaic.Lib.Pipeline.Value
import Idealize.ShloMosaic.Lib.ValueIdx

noncomputable section
namespace Cert.KernelIdeal.RegionValue
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace BiasRelu1

/-- The block's arithmetic at one entry: the bias row b is laid along every row of the block x, added, and the maximum
    with zero taken, so the entry at row p and column q is max (x(p, q) + b(0, q)) 0. -/
theorem block_at (x : Vec Ideal S10000x64 .f32) (b : Vec Ideal S1x64 .f32) (p : Fin 10000) (q : Fin 64) :
    k1_pay1 x b (ix2 p q) = max (x (ix2 p q) + b (ix2 (0 : Fin 1) q)) (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · rw [shapeCast_self]
  · rw [shapeCast_self]
    exact Cert.LibAffineAt.broadcastTo_oneRow_apply b _ p q

/-- A block is read and written whole: its access starts at offset zero on both axes. -/
theorem zero_offsets : (![0, 0] : Fin 2 → Nat) = fun _ => 0 := funext fun a => by fin_cases a <;> rfl

/-- Which block each step touches, decided once over the ten steps: the input's and the output's block at step t are
    both block (t, 0), and the bias row's block is (0, 0) at every step. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What step t writes back is block t of the whole-array function: rows 10000 t … 10000 t + 9999 of max (a + b) 0,
    each entry from the input's entry at the same place and the bias row's entry in its column. -/
theorem flushed_eq (c : Dev nD) (t : Fin cfg1.N) :
    (dat1 V c).flushed 2 t = ((cfg1.win 2).blk t).view.read (Elt Ideal)
      (Cert.Gcn.biasRelu (M := 100000) (N := 64) (V c main_v47) (V c main_v48)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := block_indices t
  funext y
  obtain ⟨p, q, rfl⟩ : ∃ (p : Fin 10000) (q : Fin 64), y = ix2 p q := ⟨y 0, y 1, eq_ix2 y⟩
  show k1_pay1 (iblk1 V c 0 t) (iblk1 V c 1 t) (ix2 p q)
    = Cert.Gcn.biasRelu (M := 100000) (N := 64) (V c main_v47) (V c main_v48) (((cfg1.win 2).blk t).view.emb (ix2 p q))
  refine (block_at _ _ p q).trans ?_
  rw [Cert.Gcn.biasRelu_apply]
  refine congrArg₂ max (congrArg₂ (· + ·) ?_ ?_) rfl
  · -- the input's block and the output's block sit at the same rows and columns of their arrays
    show V c main_v47 (((cfg1.win 0).blk t).view.emb (ix2 p q)) = V c main_v47 (((cfg1.win 2).blk t).view.emb (ix2 p q))
    refine congrArg _ (funext fun a => Fin.ext ?_)
    match a with
    | ⟨0, _⟩ =>
      show win1_0.index t (0 : Fin 2) * 10000 + 1 * p.val = win1_2.index t (0 : Fin 2) * 10000 + 1 * p.val
      omega
    | ⟨1, _⟩ =>
      show win1_0.index t (1 : Fin 2) * 64 + 1 * q.val = win1_2.index t (1 : Fin 2) * 64 + 1 * q.val
      omega
  · -- the bias row's block is the whole row: its entry in column q is the row's entry in the output's column
    show V c main_v48 (((cfg1.win 1).blk t).view.emb (ix2 (0 : Fin 1) q))
      = V c main_v48 (ix2 (0 : Fin 1) ((((cfg1.win 2).blk t).view.emb (ix2 p q)) 1))
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega

/-- An index of the array is in step t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v49).slice (win1_2.rect t)).set ↔ _
  rw [View.set_slice_whole, Rect.mem_set_unit]
  exact Iff.rfl

/-- The ten blocks of 10000 rows tile the 100000 rows: row r lies in the block of step r / 10000, which is written back. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show (i 0).val / 10000 < grid1.N; rw [N_1]; omega⟩
  obtain ⟨-, -, -, -, e4, e5⟩ := block_indices t
  have ht : t.val = (i 0).val / 10000 := rfl
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

end BiasRelu1

/-- After the step the output array holds max (a + b) 0 entry by entry, whatever it held before. -/
theorem region1_out (c : Dev nD) :
    (dat1 V c).arrAt 2 cfg1.N = Cert.Gcn.biasRelu (M := 100000) (N := 64) (V c main_v47) (V c main_v48) :=
  (dat1 V c).arrAt_eq_of_cover 2 _ (fun t _ => BiasRelu1.flushed_eq V c t) BiasRelu1.cover

end Cert.KernelIdeal.RegionValue
end
-- ==== Proof.Region2.lean ====
/-
  The second dense product of the network, block by block: the 100000 × 64 result is X · W for the 100000 × 64 matrix X and
  the 64 × 64 matrix W the region is entered with.

  The rows are cut into ten blocks of 10000. Grid point t holds rows 10000·t … 10000·t + 9999 of X (all 64 columns), the
  whole of W, and writes rows 10000·t … 10000·t + 9999 of the result (all 64 columns). Inside a block the entry at local
  row p and column q is the exact sum over k < 64 of X(10000·t + p, k) · W(k, q):
  the reshape of the left block to its own shape and the roundings of both operands to bf16 are the identity on the
  extended reals, and the accumulator starts at zero. So an entry of the result depends on one row of X and one column of W,
  both inside what the point holds, and the ten row blocks tile the array: row r is written by point r / 10000.
-/
import proofs.«132465_j2911987826950_1_alg».proof.Proof.Gen.KernelIdeal.Frame
import proofs.«132465_j2911987826950_1_alg».proof.Proof.Spec
import proofs.«132465_j2911987826950_1_alg».proof.Proof.LibMatmulAt
import Idealize.ShloMosaic.Lib.Pipeline.Value

set_option maxRecDepth 16384
noncomputable section
namespace Cert.KernelIdeal.RegionValue
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets2 : (![0, 0] : Fin 2 → Nat) = fun _ => 0 := funext fun a => by fin_cases a <;> rfl

/-- One block's product at an entry, for ANY block contents: the sum over the contracted coordinate of the products of
    the left block's row p and the right block's column q. -/
theorem blockProduct2_apply (x : Vec Ideal S10000x64 .f32) (w : Vec Ideal S64x64 .f32) (p : Fin 10000) (q : Fin 64) :
    k2_pay1 x w (ix2 p q) = ∑ k : Fin 64, x (ix2 p k) * w (ix2 k q) := by
  unfold k2_pay1
  refine (Cert.KernelIdeal.Hand.matmul_zero_plain_apply _ rfl none _ _ (ix2 p q)).trans ?_
  simp only [truncf_apply, shapeCast_self]

/-- The block indices at grid point t: the left operand's and the result's row block is t, the column block 0; the right
    operand's block is (0, 0) at every point. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is row block t of X · W. -/
theorem writtenBack2_eq (c : Dev nD) (t : Fin cfg2.N) :
    (dat2 V c).flushed 2 t = ((cfg2.win 2).blk t).view.read (Elt Ideal)
      (Cert.Gcn.dense (M := 100000) (K := 64) (N := 64) (V c main_v49) (V c main_arg5)) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x64) zero_offsets2]
  obtain ⟨e00, e01, e10, e11, e20, e21⟩ := blockIndex2 t
  funext y
  obtain ⟨p, q, rfl⟩ : ∃ (p : Fin 10000) (q : Fin 64), y = ix2 p q := ⟨y 0, y 1, eq_ix2 y⟩
  show k2_pay1 (iblk2 V c 0 t) (iblk2 V c 1 t) (ix2 p q)
    = Cert.Gcn.dense (M := 100000) (K := 64) (N := 64) (V c main_v49) (V c main_arg5) (((cfg2.win 2).blk t).view.emb (ix2 p q))
  rw [blockProduct2_apply, Cert.Gcn.dense_apply]
  refine Finset.sum_congr rfl fun k _ => ?_
  -- the left block's entry (p, k) is X at the result's row and column k
  have hx : iblk2 V c 0 t (ix2 p k) = V c main_v49 (ix2 (((cfg2.win 2).blk t).view.emb (ix2 p q) 0) k) := by
    show V c main_v49 (((cfg2.win 0).blk t).view.emb (ix2 p k)) = _
    congr 1
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  -- the right block's entry (k, q) is W at row k and the result's column
  have hw : iblk2 V c 1 t (ix2 k q) = V c main_arg5 (ix2 k (((cfg2.win 2).blk t).view.emb (ix2 p q) 1)) := by
    show V c main_arg5 (((cfg2.win 1).blk t).view.emb (ix2 k q)) = _
    congr 1
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the result is in point t's block iff each coordinate is in the block's range on its axis. -/
theorem mem_rowBlock2 (t : Fin cfg2.N) (i : (⟨2, ![100000, 64]⟩ : Shape).Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v50).slice (win2_2.rect t)).set ↔ _
  rw [View.set_slice_whole, Rect.mem_set_unit]
  exact Iff.rfl

/-- The ten row blocks tile the result: row r is in the block of point r / 10000, which writes back. -/
theorem rowBlocks_cover2 (i : (⟨2, ![100000, 64]⟩ : Shape).Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e20, e21⟩ := blockIndex2 t
  refine ⟨t, flush2_2 t, ?_⟩
  rw [mem_rowBlock2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after the region is X · W of the two arrays the region is entered with. -/
theorem region2_out (c : Dev nD) :
    (dat2 V c).arrAt 2 cfg2.N = Cert.Gcn.dense (M := 100000) (K := 64) (N := 64) (V c main_v49) (V c main_arg5) :=
  (dat2 V c).arrAt_eq_of_cover 2 _ (fun t _ => writtenBack2_eq V c t) rowBlocks_cover2

end Cert.KernelIdeal.RegionValue
end
-- ==== Proof.Region3.lean ====
/-
  The second bias-and-rectifier step of the network, read off its tiled form: the whole output array, entry by entry.

  The step works on a 100000 × 64 array a and a one-row array b of 64 entries. It is cut along the rows into ten
  blocks of 10000 rows; block t holds rows 10000 t … 10000 t + 9999 and all 64 columns, and the one row of b is the
  same block at every step. On a block x the arithmetic is max (x + b laid along every row) 0, so the entry at row p and
  column q of block t depends on exactly two numbers: a(10000 t + p, q) and b(0, q). Block t of the result is written to
  the same rows of the output array. The ten blocks tile the rows (row r lies in block r / 10000), so after the last
  block the output array is max (a(r, q) + b(0, q)) 0 at every (r, q), whatever it held before. Only + and max on the
  extended reals occur, so nothing has to be finite.
-/
import proofs.«132465_j2911987826950_1_alg».proof.Proof.Gen.KernelIdeal.Frame
import proofs.«132465_j2911987826950_1_alg».proof.Proof.Spec
import proofs.«132465_j2911987826950_1_alg».proof.Proof.LibAffineAt
import Idealize.ShloMosaic.Lib.Pipeline.Value
import Idealize.ShloMosaic.Lib.ValueIdx

noncomputable section
namespace Cert.KernelIdeal.RegionValue
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace BiasRelu3

/-- The block's arithmetic at one entry: the bias row b is laid along every row of the block x, added, and the maximum
    with zero taken, so the entry at row p and column q is max (x(p, q) + b(0, q)) 0. -/
theorem block_at (x : Vec Ideal S10000x64 .f32) (b : Vec Ideal S1x64 .f32) (p : Fin 10000) (q : Fin 64) :
    k3_pay1 x b (ix2 p q) = max (x (ix2 p q) + b (ix2 (0 : Fin 1) q)) (Ideal.ofBits .f32 0x00000000#32) := by
  unfold k3_pay1
  refine (maximumf_apply _ _ _).trans ?_
  refine congrArg₂ max ?_ rfl
  refine (addf_apply _ _ _).trans ?_
  refine congrArg₂ (· + ·) ?_ ?_
  · rw [shapeCast_self]
  · rw [shapeCast_self]
    exact Cert.LibAffineAt.broadcastTo_oneRow_apply b _ p q

/-- A block is read and written whole: its access starts at offset zero on both axes. -/
theorem zero_offsets : (![0, 0] : Fin 2 → Nat) = fun _ => 0 := funext fun a => by fin_cases a <;> rfl

/-- Which block each step touches, decided once over the ten steps: the input's and the output's block at step t are
    both block (t, 0), and the bias row's block is (0, 0) at every step. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What step t writes back is block t of the whole-array function: rows 10000 t … 10000 t + 9999 of max (a + b) 0,
    each entry from the input's entry at the same place and the bias row's entry in its column. -/
theorem flushed_eq (c : Dev nD) (t : Fin cfg3.N) :
    (dat3 V c).flushed 2 t = ((cfg3.win 2).blk t).view.read (Elt Ideal)
      (Cert.Gcn.biasRelu (M := 100000) (N := 64) (V c main_v63) (V c main_v64)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e0, e1, e2, e3, e4, e5⟩ := block_indices t
  funext y
  obtain ⟨p, q, rfl⟩ : ∃ (p : Fin 10000) (q : Fin 64), y = ix2 p q := ⟨y 0, y 1, eq_ix2 y⟩
  show k3_pay1 (iblk3 V c 0 t) (iblk3 V c 1 t) (ix2 p q)
    = Cert.Gcn.biasRelu (M := 100000) (N := 64) (V c main_v63) (V c main_v64) (((cfg3.win 2).blk t).view.emb (ix2 p q))
  refine (block_at _ _ p q).trans ?_
  rw [Cert.Gcn.biasRelu_apply]
  refine congrArg₂ max (congrArg₂ (· + ·) ?_ ?_) rfl
  · -- the input's block and the output's block sit at the same rows and columns of their arrays
    show V c main_v63 (((cfg3.win 0).blk t).view.emb (ix2 p q)) = V c main_v63 (((cfg3.win 2).blk t).view.emb (ix2 p q))
    refine congrArg _ (funext fun a => Fin.ext ?_)
    match a with
    | ⟨0, _⟩ =>
      show win3_0.index t (0 : Fin 2) * 10000 + 1 * p.val = win3_2.index t (0 : Fin 2) * 10000 + 1 * p.val
      omega
    | ⟨1, _⟩ =>
      show win3_0.index t (1 : Fin 2) * 64 + 1 * q.val = win3_2.index t (1 : Fin 2) * 64 + 1 * q.val
      omega
  · -- the bias row's block is the whole row: its entry in column q is the row's entry in the output's column
    show V c main_v64 (((cfg3.win 1).blk t).view.emb (ix2 (0 : Fin 1) q))
      = V c main_v64 (ix2 (0 : Fin 1) ((((cfg3.win 2).blk t).view.emb (ix2 p q)) 1))
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 64 + 1 * q.val = win3_2.index t (1 : Fin 2) * 64 + 1 * q.val
      omega

/-- An index of the array is in step t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v65).slice (win3_2.rect t)).set ↔ _
  rw [View.set_slice_whole, Rect.mem_set_unit]
  exact Iff.rfl

/-- The ten blocks of 10000 rows tile the 100000 rows: row r lies in the block of step r / 10000, which is written back. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by show (i 0).val / 10000 < grid3.N; rw [N_3]; omega⟩
  obtain ⟨-, -, -, -, e4, e5⟩ := block_indices t
  have ht : t.val = (i 0).val / 10000 := rfl
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

end BiasRelu3

/-- After the step the output array holds max (a + b) 0 entry by entry, whatever it held before. -/
theorem region3_out (c : Dev nD) :
    (dat3 V c).arrAt 2 cfg3.N = Cert.Gcn.biasRelu (M := 100000) (N := 64) (V c main_v63) (V c main_v64) :=
  (dat3 V c).arrAt_eq_of_cover 2 _ (fun t _ => BiasRelu3.flushed_eq V c t) BiasRelu3.cover

end Cert.KernelIdeal.RegionValue
end
-- ==== Proof.Region4.lean ====
/-
  The third dense product of the network, block by block: the 100000 × 1 result is X · W for the 100000 × 64 matrix X and
  the 64 × 1 matrix W the region is entered with.

  The rows are cut into ten blocks of 10000. Grid point t holds rows 10000·t … 10000·t + 9999 of X (all 64 columns), the
  whole of W, and writes rows 10000·t … 10000·t + 9999 of the result (all 1 columns). Inside a block the entry at local
  row p and column q is the exact sum over k < 64 of X(10000·t + p, k) · W(k, q):
  the reshape of the left block to its own shape and the roundings of both operands to bf16 are the identity on the
  extended reals, and the accumulator starts at zero. So an entry of the result depends on one row of X and one column of W,
  both inside what the point holds, and the ten row blocks tile the array: row r is written by point r / 10000.
-/
import proofs.«132465_j2911987826950_1_alg».proof.Proof.Gen.KernelIdeal.Frame
import proofs.«132465_j2911987826950_1_alg».proof.Proof.Spec
import proofs.«132465_j2911987826950_1_alg».proof.Proof.LibMatmulAt
import Idealize.ShloMosaic.Lib.Pipeline.Value

set_option maxRecDepth 16384
noncomputable section
namespace Cert.KernelIdeal.RegionValue
open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets4 : (![0, 0] : Fin 2 → Nat) = fun _ => 0 := funext fun a => by fin_cases a <;> rfl

/-- One block's product at an entry, for ANY block contents: the sum over the contracted coordinate of the products of
    the left block's row p and the right block's column q. -/
theorem blockProduct4_apply (x : Vec Ideal S10000x64 .f32) (w : Vec Ideal S64x1 .f32) (p : Fin 10000) (q : Fin 1) :
    k4_pay1 x w (ix2 p q) = ∑ k : Fin 64, x (ix2 p k) * w (ix2 k q) := by
  unfold k4_pay1
  refine (Cert.KernelIdeal.Hand.matmul_zero_plain_apply _ rfl none _ _ (ix2 p q)).trans ?_
  simp only [truncf_apply, shapeCast_self]

/-- The block indices at grid point t: the left operand's and the result's row block is t, the column block 0; the right
    operand's block is (0, 0) at every point. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is row block t of X · W. -/
theorem writtenBack4_eq (c : Dev nD) (t : Fin cfg4.N) :
    (dat4 V c).flushed 2 t = ((cfg4.win 2).blk t).view.read (Elt Ideal)
      (Cert.Gcn.dense (M := 100000) (K := 64) (N := 1) (V c main_v65) (V c main_arg7)) := by
  show (cfg4.win 2).cut (grid4.coords t) ((dat4 V c).after 2 t) = _
  rw [after4_2]
  unfold out4_2
  rw [View.canon_unit_zero zero_offsets4]
  simp only [View.ld_unit_zero (S := S10000x64) zero_offsets4, View.ld_unit_zero (S := S64x1) zero_offsets4]
  obtain ⟨e00, e01, e10, e11, e20, e21⟩ := blockIndex4 t
  funext y
  obtain ⟨p, q, rfl⟩ : ∃ (p : Fin 10000) (q : Fin 1), y = ix2 p q := ⟨y 0, y 1, eq_ix2 y⟩
  show k4_pay1 (iblk4 V c 0 t) (iblk4 V c 1 t) (ix2 p q)
    = Cert.Gcn.dense (M := 100000) (K := 64) (N := 1) (V c main_v65) (V c main_arg7) (((cfg4.win 2).blk t).view.emb (ix2 p q))
  rw [blockProduct4_apply, Cert.Gcn.dense_apply]
  refine Finset.sum_congr rfl fun k _ => ?_
  -- the left block's entry (p, k) is X at the result's row and column k
  have hx : iblk4 V c 0 t (ix2 p k) = V c main_v65 (ix2 (((cfg4.win 2).blk t).view.emb (ix2 p q) 0) k) := by
    show V c main_v65 (((cfg4.win 0).blk t).view.emb (ix2 p k)) = _
    congr 1
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  -- the right block's entry (k, q) is W at row k and the result's column
  have hw : iblk4 V c 1 t (ix2 k q) = V c main_arg7 (ix2 k (((cfg4.win 2).blk t).view.emb (ix2 p q) 1)) := by
    show V c main_arg7 (((cfg4.win 1).blk t).view.emb (ix2 k q)) = _
    congr 1
    funext a; apply Fin.ext
    match a with
    | ⟨0, _⟩ => show win4_1.index t (0 : Fin 2) * 64 + 1 * k.val = k.val; omega
    | ⟨1, _⟩ => show win4_1.index t (1 : Fin 2) * 1 + 1 * q.val = win4_2.index t (1 : Fin 2) * 1 + 1 * q.val; omega
  rw [hx, hw]

/-- An index of the result is in point t's block iff each coordinate is in the block's range on its axis. -/
theorem mem_rowBlock4 (t : Fin cfg4.N) (i : (⟨2, ![100000, 1]⟩ : Shape).Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v66).slice (win4_2.rect t)).set ↔ _
  rw [View.set_slice_whole, Rect.mem_set_unit]
  exact Iff.rfl

/-- The ten row blocks tile the result: row r is in the block of point r / 10000, which writes back. -/
theorem rowBlocks_cover4 (i : (⟨2, ![100000, 1]⟩ : Shape).Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e20, e21⟩ := blockIndex4 t
  refine ⟨t, flush4_2 t, ?_⟩
  rw [mem_rowBlock4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 1 ≤ (i 1).val ∧ (i 1).val < win4_2.index t (1 : Fin 2) * 1 + 1
    omega

/-- The result array after the region is X · W of the two arrays the region is entered with. -/
theorem region4_out (c : Dev nD) :
    (dat4 V c).arrAt 2 cfg4.N = Cert.Gcn.dense (M := 100000) (K := 64) (N := 1) (V c main_v65) (V c main_arg7) :=
  (dat4 V c).arrAt_eq_of_cover 2 _ (fun t _ => writtenBack4_eq V c t) rowBlocks_cover4

end Cert.KernelIdeal.RegionValue
end
-- ==== Proof.Region5.lean ====
/-
  The third bias-and-rectifier step of the network, read off its tiled form: the whole output array, entry by entry.

  The step works on a 100000 × 1 array a and a one-row array b of 1 entries. It is cut along the rows into ten
  blocks of 10000 rows; block t holds rows 10000 t … 10000 t + 9999 and all 1 columns, and the one row of b is the
  same block at every step. On a block x the arithmetic is max (x + b laid along every row) 0, so the entry at row p and
  column q of block t depends on exactly two numbers: a(10000 t + p, q) and b(0, q). Block t of the result is written to
  the same rows of the output array. The ten blocks tile the rows (row r lies in block r / 10000), so after the last
  block the output array is max (a(r, q) + b(0, q)) 0 at every (r, q), whatever it held before. Only + and max on the
  extended reals occur, so nothing has to be finite.
-/
import proofs.«132465_j2911987826950_1_alg».proof.Proof.Gen.KernelIdeal.Frame
import proofs.«132465_j2911987826950_1_alg».proof.Proof.Spec
import proofs.«132465_j2911987826950_1_alg».proof.Proof.LibAffineAt
import Idealize.ShloMosaic.Lib.Pipeline.Value
import Idealize.ShloMosaic.Lib.ValueIdx

noncomputable section
namespace Cert.KernelIdeal.RegionValue
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace BiasRelu5

/-- The block's arithmetic at one entry: the bias row b is laid along every row of the block x, added, and the maximum
    with zero taken, so the entry at row p and column q is max (x(p, q) + b(0, q)) 0. -/
theorem block_at (x : Vec Ideal S10000x1 .f32) (b : Vec Ideal S1x1 .f32) (p : Fin 10000) (q : Fin 1) :
    k5_pay1 x b (ix2 p q) = max (x (ix2 p q) + b (ix2 (0 : Fin 1) q)) (Ideal.ofBits .f32 0x00000000#32) := by
  unfold k5_pay1
  refine (maximumf_apply _ _ _).trans ?_
  refine congrArg₂ max ?_ rfl
  refine (addf_apply _ _ _).trans ?_
  refine congrArg₂ (· + ·) ?_ ?_
  · rw [shapeCast_self]
  · rw [shapeCast_self]
    exact Cert.LibAffineAt.broadcastTo_oneRow_apply b _ p q

/-- A block is read and written whole: its access starts at offset zero on both axes. -/
theorem zero_offsets : (![0, 0] : Fin 2 → Nat) = fun _ => 0 := funext fun a => by fin_cases a <;> rfl

/-- Which block each step touches, decided once over the ten steps: the input's and the output's block at step t are
    both block (t, 0), and the bias row's block is (0, 0) at every step. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What step t writes back is block t of the whole-array function: rows 10000 t … 10000 t + 9999 of max (a + b) 0,
    each entry from the input's entry at the same place and the bias row's entry in its column. -/
theorem flushed_eq (c : Dev nD) (t : Fin cfg5.N) :
    (dat5 V c).flushed 2 t = ((cfg5.win 2).blk t).view.read (Elt Ideal)
      (Cert.Gcn.biasRelu (M := 100000) (N := 1) (V c main_v78) (V c main_v79)) := by
  show (cfg5.win 2).cut (grid5.coords t) ((dat5 V c).after 2 t) = _
  rw [after5_2]
  unfold out5_2
  rw [View.canon_unit_zero zero_offsets]
  simp only [View.ld_unit_zero (S := S10000x1) zero_offsets, View.ld_unit_zero (S := S1x1) zero_offsets]
  obtain ⟨e0, e1, e2, e3, e4, e5⟩ := block_indices t
  funext y
  obtain ⟨p, q, rfl⟩ : ∃ (p : Fin 10000) (q : Fin 1), y = ix2 p q := ⟨y 0, y 1, eq_ix2 y⟩
  show k5_pay1 (iblk5 V c 0 t) (iblk5 V c 1 t) (ix2 p q)
    = Cert.Gcn.biasRelu (M := 100000) (N := 1) (V c main_v78) (V c main_v79) (((cfg5.win 2).blk t).view.emb (ix2 p q))
  refine (block_at _ _ p q).trans ?_
  rw [Cert.Gcn.biasRelu_apply]
  refine congrArg₂ max (congrArg₂ (· + ·) ?_ ?_) rfl
  · -- the input's block and the output's block sit at the same rows and columns of their arrays
    show V c main_v78 (((cfg5.win 0).blk t).view.emb (ix2 p q)) = V c main_v78 (((cfg5.win 2).blk t).view.emb (ix2 p q))
    refine congrArg _ (funext fun a => Fin.ext ?_)
    match a with
    | ⟨0, _⟩ =>
      show win5_0.index t (0 : Fin 2) * 10000 + 1 * p.val = win5_2.index t (0 : Fin 2) * 10000 + 1 * p.val
      omega
    | ⟨1, _⟩ =>
      show win5_0.index t (1 : Fin 2) * 1 + 1 * q.val = win5_2.index t (1 : Fin 2) * 1 + 1 * q.val
      omega
  · -- the bias row's block is the whole row: its entry in column q is the row's entry in the output's column
    show V c main_v79 (((cfg5.win 1).blk t).view.emb (ix2 (0 : Fin 1) q))
      = V c main_v79 (ix2 (0 : Fin 1) ((((cfg5.win 2).blk t).view.emb (ix2 p q)) 1))
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 1 + 1 * q.val = win5_2.index t (1 : Fin 2) * 1 + 1 * q.val
      omega

/-- An index of the array is in step t's block iff each coordinate is in the block's range on its axis. -/
theorem mem_block (t : Fin cfg5.N) (i : S100000x1.Idx) :
    i ∈ ((cfg5.win 2).blk t).view.set ↔ ∀ a : Fin 2, win5_2.index t a * S10000x1.size a ≤ (i a).val
      ∧ (i a).val < win5_2.index t a * S10000x1.size a + S10000x1.size a := by
  show i ∈ ((View.whole main_v80).slice (win5_2.rect t)).set ↔ _
  rw [View.set_slice_whole, Rect.mem_set_unit]
  exact Iff.rfl

/-- The ten blocks of 10000 rows tile the 100000 rows: row r lies in the block of step r / 10000, which is written back. -/
theorem cover (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  let t : Fin cfg5.N := ⟨(i 0).val / 10000, by show (i 0).val / 10000 < grid5.N; rw [N_5]; omega⟩
  obtain ⟨-, -, -, -, e4, e5⟩ := block_indices t
  have ht : t.val = (i 0).val / 10000 := rfl
  refine ⟨t, flush5_2 t, ?_⟩
  rw [mem_block]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 1 ≤ (i 1).val ∧ (i 1).val < win5_2.index t (1 : Fin 2) * 1 + 1
    omega

end BiasRelu5

/-- After the step the output array holds max (a + b) 0 entry by entry, whatever it held before. -/
theorem region5_out (c : Dev nD) :
    (dat5 V c).arrAt 2 cfg5.N = Cert.Gcn.biasRelu (M := 100000) (N := 1) (V c main_v78) (V c main_v79) :=
  (dat5 V c).arrAt_eq_of_cover 2 _ (fun t _ => BiasRelu5.flushed_eq V c t) BiasRelu5.cover

end Cert.KernelIdeal.RegionValue
end
-- ==== Proof.Chain.lean ====
/-
  The idealized kernel program's run, boundary by boundary. Between the launch and the return the TensorCore's buffers
  pass through twelve boundaries: after each stretch of host operations and after each of the six tiled regions. At
  every boundary each buffer that a later segment still reads is identified with the value the reference computes at
  the same place in its own program, as a function of the nine argument arrays:

  * the prefix builds the edge lists with their self-loops (source and target indices, weights), the in-degrees and
    their guarded inverse square roots, and the per-edge norm — host operations that are the reference's own, so each
    buffer equals the reference's stage by unfolding definitions;
  * a region's output array is the matrix product, or the bias-and-maximum, of its two input arrays as the region finds
    them (the region modules), which are the reference's stages of the same name (the reference module), a bias vector
    recast as a one-row matrix being its broadcast along axis 1;
  * a stretch between regions gathers rows of the product by source index, scales them by the norm and scatter-adds them
    by target index: again the reference's own operations, applied to buffers already identified;
  * every other live buffer is untouched by a segment and keeps its value.

  The last boundary's contents at the result buffer are therefore the reference's last stage.
-/
import proofs.«132465_j2911987826950_1_alg».proof.Proof.Gen.KernelIdeal.Frame
import proofs.«132465_j2911987826950_1_alg».proof.Proof.Gen.ReferenceIdeal.Read
import proofs.«132465_j2911987826950_1_alg».proof.Proof.Spec
import proofs.«132465_j2911987826950_1_alg».proof.Proof.RefStages
import proofs.«132465_j2911987826950_1_alg».proof.Proof.LibTypedRef
import proofs.«132465_j2911987826950_1_alg».proof.Proof.Region0
import proofs.«132465_j2911987826950_1_alg».proof.Proof.Region1
import proofs.«132465_j2911987826950_1_alg».proof.Proof.Region2
import proofs.«132465_j2911987826950_1_alg».proof.Proof.Region3
import proofs.«132465_j2911987826950_1_alg».proof.Proof.Region4
import proofs.«132465_j2911987826950_1_alg».proof.Proof.Region5
import Idealize.ShloMosaic.Lib.StableHlo.Run

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A concatenate keeps its operands inside a list of pieces; there each operation's result at its own buffer, and at any
    other buffer what was there before, is read by rewriting. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

theorem W1_v3 (c : Dev nD) : W1 m ρ c (Proc.devRef .tc main_v3)
    = Cert.ReferenceIdeal.Read.val_main_v3 (F := Ideal) (m ((c : Thread nD τ).loc main_arg1)) := by
  dsimp only [W1, W0, hostOps0]
  after_results_simp
  results_rw
  rfl

theorem W1_v6 (c : Dev nD) : W1 m ρ c (Proc.devRef .tc main_v6)
    = Cert.ReferenceIdeal.Read.val_main_v6 (F := Ideal) (m ((c : Thread nD τ).loc main_arg1)) := by
  dsimp only [W1, W0, hostOps0]
  after_results_simp
  results_rw
  rfl

theorem W1_v8 (c : Dev nD) : W1 m ρ c (Proc.devRef .tc main_v8)
    = Cert.ReferenceIdeal.Read.val_main_v8 (F := Ideal) (m ((c : Thread nD τ).loc main_arg2)) := by
  dsimp only [W1, W0, hostOps0]
  after_results_simp
  results_rw
  rfl

theorem W1_v13 (c : Dev nD) : W1 m ρ c (Proc.devRef .tc main_v13)
    = Cert.ReferenceIdeal.Read.val_main_v13 (F := Ideal) (m ((c : Thread nD τ).loc main_arg1)) (m ((c : Thread nD τ).loc main_arg2)) := by
  dsimp only [W1, W0, hostOps0]
  after_results_simp
  results_rw
  rfl

theorem W1_v16 (c : Dev nD) : W1 m ρ c (Proc.devRef .tc main_v16)
    = Cert.ReferenceIdeal.Read.val_main_v16 (F := Ideal) (m ((c : Thread nD τ).loc main_arg1)) (m ((c : Thread nD τ).loc main_arg2)) := by
  dsimp only [W1, W0, hostOps0]
  after_results_simp
  results_rw
  rfl

theorem W1_cst_3 (c : Dev nD) : W1 m ρ c (Proc.devRef .tc main_cst_3)
    = Cert.ReferenceIdeal.Read.val_main_cst_3 (F := Ideal) := by
  dsimp only [W1, W0, hostOps0]
  after_results_simp <;> rfl

theorem W1_arg0 (c : Dev nD) : W1 m ρ c (Proc.devRef .tc main_arg0)
    = (m ((c : Thread nD τ).loc main_arg0)) := by
  dsimp only [W1, W0, hostOps0]
  after_results_simp <;> rfl

theorem W1_arg3 (c : Dev nD) : W1 m ρ c (Proc.devRef .tc main_arg3)
    = (m ((c : Thread nD τ).loc main_arg3)) := by
  dsimp only [W1, W0, hostOps0]
  after_results_simp <;> rfl

theorem W1_arg4 (c : Dev nD) : W1 m ρ c (Proc.devRef .tc main_arg4)
    = (m ((c : Thread nD τ).loc main_arg4)) := by
  dsimp only [W1, W0, hostOps0]
  after_results_simp <;> rfl

theorem W1_arg5 (c : Dev nD) : W1 m ρ c (Proc.devRef .tc main_arg5)
    = (m ((c : Thread nD τ).loc main_arg5)) := by
  dsimp only [W1, W0, hostOps0]
  after_results_simp <;> rfl

theorem W1_arg6 (c : Dev nD) : W1 m ρ c (Proc.devRef .tc main_arg6)
    = (m ((c : Thread nD τ).loc main_arg6)) := by
  dsimp only [W1, W0, hostOps0]
  after_results_simp <;> rfl

theorem W1_arg7 (c : Dev nD) : W1 m ρ c (Proc.devRef .tc main_arg7)
    = (m ((c : Thread nD τ).loc main_arg7)) := by
  dsimp only [W1, W0, hostOps0]
  after_results_simp <;> rfl

theorem W1_arg8 (c : Dev nD) : W1 m ρ c (Proc.devRef .tc main_arg8)
    = (m ((c : Thread nD τ).loc main_arg8)) := by
  dsimp only [W1, W0, hostOps0]
  after_results_simp <;> rfl

theorem W2_v17 (c : Dev nD) : W2 m ρ c (Proc.devRef .tc main_v17)
    = Cert.ReferenceIdeal.Read.val_main_v17 (F := Ideal) (m ((c : Thread nD τ).loc main_arg1)) (m ((c : Thread nD τ).loc main_arg2)) := by
  have h_v13 := W1_v13 m ρ c
  have h_v16 := W1_v16 m ρ c
  have h_cst_3 := W1_cst_3 m ρ c
  show StableHlo.after hostOps0_1 (W1 m ρ c) (Proc.devRef .tc main_v17) = _
  generalize W1 m ρ c = X at h_v13 h_v16 h_cst_3 ⊢
  dsimp only [hostOps0_1]
  after_results_simp
  simp only [Cert.LibTypedRef.ofBuf_toBuf, Cert.LibTypedRef.toBuf_ofBuf]
  show select (X (Proc.devRef .tc main_v13)) (X (Proc.devRef .tc main_v16)) (broadcastInDim S100000 ![] bcast_S_S100000 (id (X (Proc.devRef .tc main_cst_3)))) = _
  rw [h_v13, h_v16, h_cst_3]
  rfl

theorem W2_v3 (c : Dev nD) : W2 m ρ c (Proc.devRef .tc main_v3)
    = Cert.ReferenceIdeal.Read.val_main_v3 (F := Ideal) (m ((c : Thread nD τ).loc main_arg1)) := by
  have h_v3 := W1_v3 m ρ c
  show StableHlo.after hostOps0_1 (W1 m ρ c) (Proc.devRef .tc main_v3) = _
  generalize W1 m ρ c = X at h_v3 ⊢
  dsimp only [hostOps0_1]
  after_results_simp
  exact h_v3

theorem W2_v6 (c : Dev nD) : W2 m ρ c (Proc.devRef .tc main_v6)
    = Cert.ReferenceIdeal.Read.val_main_v6 (F := Ideal) (m ((c : Thread nD τ).loc main_arg1)) := by
  have h_v6 := W1_v6 m ρ c
  show StableHlo.after hostOps0_1 (W1 m ρ c) (Proc.devRef .tc main_v6) = _
  generalize W1 m ρ c = X at h_v6 ⊢
  dsimp only [hostOps0_1]
  after_results_simp
  exact h_v6

theorem W2_v8 (c : Dev nD) : W2 m ρ c (Proc.devRef .tc main_v8)
    = Cert.ReferenceIdeal.Read.val_main_v8 (F := Ideal) (m ((c : Thread nD τ).loc main_arg2)) := by
  have h_v8 := W1_v8 m ρ c
  show StableHlo.after hostOps0_1 (W1 m ρ c) (Proc.devRef .tc main_v8) = _
  generalize W1 m ρ c = X at h_v8 ⊢
  dsimp only [hostOps0_1]
  after_results_simp
  exact h_v8

theorem W2_arg0 (c : Dev nD) : W2 m ρ c (Proc.devRef .tc main_arg0)
    = (m ((c : Thread nD τ).loc main_arg0)) := by
  have h_arg0 := W1_arg0 m ρ c
  show StableHlo.after hostOps0_1 (W1 m ρ c) (Proc.devRef .tc main_arg0) = _
  generalize W1 m ρ c = X at h_arg0 ⊢
  dsimp only [hostOps0_1]
  after_results_simp
  exact h_arg0

theorem W2_arg3 (c : Dev nD) : W2 m ρ c (Proc.devRef .tc main_arg3)
    = (m ((c : Thread nD τ).loc main_arg3)) := by
  have h_arg3 := W1_arg3 m ρ c
  show StableHlo.after hostOps0_1 (W1 m ρ c) (Proc.devRef .tc main_arg3) = _
  generalize W1 m ρ c = X at h_arg3 ⊢
  dsimp only [hostOps0_1]
  after_results_simp
  exact h_arg3

theorem W2_arg4 (c : Dev nD) : W2 m ρ c (Proc.devRef .tc main_arg4)
    = (m ((c : Thread nD τ).loc main_arg4)) := by
  have h_arg4 := W1_arg4 m ρ c
  show StableHlo.after hostOps0_1 (W1 m ρ c) (Proc.devRef .tc main_arg4) = _
  generalize W1 m ρ c = X at h_arg4 ⊢
  dsimp only [hostOps0_1]
  after_results_simp
  exact h_arg4

theorem W2_arg5 (c : Dev nD) : W2 m ρ c (Proc.devRef .tc main_arg5)
    = (m ((c : Thread nD τ).loc main_arg5)) := by
  have h_arg5 := W1_arg5 m ρ c
  show StableHlo.after hostOps0_1 (W1 m ρ c) (Proc.devRef .tc main_arg5) = _
  generalize W1 m ρ c = X at h_arg5 ⊢
  dsimp only [hostOps0_1]
  after_results_simp
  exact h_arg5

theorem W2_arg6 (c : Dev nD) : W2 m ρ c (Proc.devRef .tc main_arg6)
    = (m ((c : Thread nD τ).loc main_arg6)) := by
  have h_arg6 := W1_arg6 m ρ c
  show StableHlo.after hostOps0_1 (W1 m ρ c) (Proc.devRef .tc main_arg6) = _
  generalize W1 m ρ c = X at h_arg6 ⊢
  dsimp only [hostOps0_1]
  after_results_simp
  exact h_arg6

theorem W2_arg7 (c : Dev nD) : W2 m ρ c (Proc.devRef .tc main_arg7)
    = (m ((c : Thread nD τ).loc main_arg7)) := by
  have h_arg7 := W1_arg7 m ρ c
  show StableHlo.after hostOps0_1 (W1 m ρ c) (Proc.devRef .tc main_arg7) = _
  generalize W1 m ρ c = X at h_arg7 ⊢
  dsimp only [hostOps0_1]
  after_results_simp
  exact h_arg7

theorem W2_arg8 (c : Dev nD) : W2 m ρ c (Proc.devRef .tc main_arg8)
    = (m ((c : Thread nD τ).loc main_arg8)) := by
  have h_arg8 := W1_arg8 m ρ c
  show StableHlo.after hostOps0_1 (W1 m ρ c) (Proc.devRef .tc main_arg8) = _
  generalize W1 m ρ c = X at h_arg8 ⊢
  dsimp only [hostOps0_1]
  after_results_simp
  exact h_arg8

theorem W3_v33 (c : Dev nD) : W3 m ρ c (Proc.devRef .tc main_v33)
    = Cert.ReferenceIdeal.Read.val_main_v33 (F := Ideal) (m ((c : Thread nD τ).loc main_arg1)) (m ((c : Thread nD τ).loc main_arg2)) := by
  have h_v3 := W2_v3 m ρ c
  have h_v6 := W2_v6 m ρ c
  have h_v8 := W2_v8 m ρ c
  have h_v17 := W2_v17 m ρ c
  show StableHlo.after hostOps0_2 (W2 m ρ c) (Proc.devRef .tc main_v33) = _
  generalize W2 m ρ c = X at h_v3 h_v6 h_v8 h_v17 ⊢
  dsimp only [hostOps0_2]
  after_results_simp
  rw [h_v3, h_v6, h_v8, h_v17]
  rfl

theorem W3_v3 (c : Dev nD) : W3 m ρ c (Proc.devRef .tc main_v3)
    = Cert.ReferenceIdeal.Read.val_main_v3 (F := Ideal) (m ((c : Thread nD τ).loc main_arg1)) := by
  have h_v3 := W2_v3 m ρ c
  show StableHlo.after hostOps0_2 (W2 m ρ c) (Proc.devRef .tc main_v3) = _
  generalize W2 m ρ c = X at h_v3 ⊢
  dsimp only [hostOps0_2]
  after_results_simp
  exact h_v3

theorem W3_v6 (c : Dev nD) : W3 m ρ c (Proc.devRef .tc main_v6)
    = Cert.ReferenceIdeal.Read.val_main_v6 (F := Ideal) (m ((c : Thread nD τ).loc main_arg1)) := by
  have h_v6 := W2_v6 m ρ c
  show StableHlo.after hostOps0_2 (W2 m ρ c) (Proc.devRef .tc main_v6) = _
  generalize W2 m ρ c = X at h_v6 ⊢
  dsimp only [hostOps0_2]
  after_results_simp
  exact h_v6

theorem W3_arg0 (c : Dev nD) : W3 m ρ c (Proc.devRef .tc main_arg0)
    = (m ((c : Thread nD τ).loc main_arg0)) := by
  have h_arg0 := W2_arg0 m ρ c
  show StableHlo.after hostOps0_2 (W2 m ρ c) (Proc.devRef .tc main_arg0) = _
  generalize W2 m ρ c = X at h_arg0 ⊢
  dsimp only [hostOps0_2]
  after_results_simp
  exact h_arg0

theorem W3_arg3 (c : Dev nD) : W3 m ρ c (Proc.devRef .tc main_arg3)
    = (m ((c : Thread nD τ).loc main_arg3)) := by
  have h_arg3 := W2_arg3 m ρ c
  show StableHlo.after hostOps0_2 (W2 m ρ c) (Proc.devRef .tc main_arg3) = _
  generalize W2 m ρ c = X at h_arg3 ⊢
  dsimp only [hostOps0_2]
  after_results_simp
  exact h_arg3

theorem W3_arg4 (c : Dev nD) : W3 m ρ c (Proc.devRef .tc main_arg4)
    = (m ((c : Thread nD τ).loc main_arg4)) := by
  have h_arg4 := W2_arg4 m ρ c
  show StableHlo.after hostOps0_2 (W2 m ρ c) (Proc.devRef .tc main_arg4) = _
  generalize W2 m ρ c = X at h_arg4 ⊢
  dsimp only [hostOps0_2]
  after_results_simp
  exact h_arg4

theorem W3_arg5 (c : Dev nD) : W3 m ρ c (Proc.devRef .tc main_arg5)
    = (m ((c : Thread nD τ).loc main_arg5)) := by
  have h_arg5 := W2_arg5 m ρ c
  show StableHlo.after hostOps0_2 (W2 m ρ c) (Proc.devRef .tc main_arg5) = _
  generalize W2 m ρ c = X at h_arg5 ⊢
  dsimp only [hostOps0_2]
  after_results_simp
  exact h_arg5

theorem W3_arg6 (c : Dev nD) : W3 m ρ c (Proc.devRef .tc main_arg6)
    = (m ((c : Thread nD τ).loc main_arg6)) := by
  have h_arg6 := W2_arg6 m ρ c
  show StableHlo.after hostOps0_2 (W2 m ρ c) (Proc.devRef .tc main_arg6) = _
  generalize W2 m ρ c = X at h_arg6 ⊢
  dsimp only [hostOps0_2]
  after_results_simp
  exact h_arg6

theorem W3_arg7 (c : Dev nD) : W3 m ρ c (Proc.devRef .tc main_arg7)
    = (m ((c : Thread nD τ).loc main_arg7)) := by
  have h_arg7 := W2_arg7 m ρ c
  show StableHlo.after hostOps0_2 (W2 m ρ c) (Proc.devRef .tc main_arg7) = _
  generalize W2 m ρ c = X at h_arg7 ⊢
  dsimp only [hostOps0_2]
  after_results_simp
  exact h_arg7

theorem W3_arg8 (c : Dev nD) : W3 m ρ c (Proc.devRef .tc main_arg8)
    = (m ((c : Thread nD τ).loc main_arg8)) := by
  have h_arg8 := W2_arg8 m ρ c
  show StableHlo.after hostOps0_2 (W2 m ρ c) (Proc.devRef .tc main_arg8) = _
  generalize W2 m ρ c = X at h_arg8 ⊢
  dsimp only [hostOps0_2]
  after_results_simp
  exact h_arg8

theorem W4_v34 (c : Dev nD) : W4 m ρ c (Proc.devRef .tc main_v34)
    = Cert.ReferenceIdeal.Read.val_main_v34 (F := Ideal) (m ((c : Thread nD τ).loc main_arg0)) (m ((c : Thread nD τ).loc main_arg3)) := by
  refine (W4_arr m ρ c 2).trans ?_
  refine (Cert.KernelIdeal.RegionValue.region0_out (V3 m ρ) c).trans ?_
  show Cert.Gcn.dense (M := 100000) (K := 30) (N := 64) (W3 m ρ c (Proc.devRef .tc main_arg0)) (W3 m ρ c (Proc.devRef .tc main_arg3)) = _
  rw [W3_arg0 m ρ c, W3_arg3 m ρ c]
  exact (Cert.ReferenceIdeal.RefValue.v34_eq _ _).symm

theorem W4_v3 (c : Dev nD) : W4 m ρ c (Proc.devRef .tc main_v3)
    = Cert.ReferenceIdeal.Read.val_main_v3 (F := Ideal) (m ((c : Thread nD τ).loc main_arg1)) := by
  exact (W4_of_ne m ρ c main_v3 (by decide)).trans (W3_v3 m ρ c)

theorem W4_v6 (c : Dev nD) : W4 m ρ c (Proc.devRef .tc main_v6)
    = Cert.ReferenceIdeal.Read.val_main_v6 (F := Ideal) (m ((c : Thread nD τ).loc main_arg1)) := by
  exact (W4_of_ne m ρ c main_v6 (by decide)).trans (W3_v6 m ρ c)

theorem W4_v33 (c : Dev nD) : W4 m ρ c (Proc.devRef .tc main_v33)
    = Cert.ReferenceIdeal.Read.val_main_v33 (F := Ideal) (m ((c : Thread nD τ).loc main_arg1)) (m ((c : Thread nD τ).loc main_arg2)) := by
  exact (W4_of_ne m ρ c main_v33 (by decide)).trans (W3_v33 m ρ c)

theorem W4_arg4 (c : Dev nD) : W4 m ρ c (Proc.devRef .tc main_arg4)
    = (m ((c : Thread nD τ).loc main_arg4)) := by
  exact (W4_of_ne m ρ c main_arg4 (by decide)).trans (W3_arg4 m ρ c)

theorem W4_arg5 (c : Dev nD) : W4 m ρ c (Proc.devRef .tc main_arg5)
    = (m ((c : Thread nD τ).loc main_arg5)) := by
  exact (W4_of_ne m ρ c main_arg5 (by decide)).trans (W3_arg5 m ρ c)

theorem W4_arg6 (c : Dev nD) : W4 m ρ c (Proc.devRef .tc main_arg6)
    = (m ((c : Thread nD τ).loc main_arg6)) := by
  exact (W4_of_ne m ρ c main_arg6 (by decide)).trans (W3_arg6 m ρ c)

theorem W4_arg7 (c : Dev nD) : W4 m ρ c (Proc.devRef .tc main_arg7)
    = (m ((c : Thread nD τ).loc main_arg7)) := by
  exact (W4_of_ne m ρ c main_arg7 (by decide)).trans (W3_arg7 m ρ c)

theorem W4_arg8 (c : Dev nD) : W4 m ρ c (Proc.devRef .tc main_arg8)
    = (m ((c : Thread nD τ).loc main_arg8)) := by
  exact (W4_of_ne m ρ c main_arg8 (by decide)).trans (W3_arg8 m ρ c)

theorem W5_v47 (c : Dev nD) : W5 m ρ c (Proc.devRef .tc main_v47)
    = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  have h_v3 := W4_v3 m ρ c
  have h_v6 := W4_v6 m ρ c
  have h_v33 := W4_v33 m ρ c
  have h_v34 := W4_v34 m ρ c
  show StableHlo.after hostOps1 (W4 m ρ c) (Proc.devRef .tc main_v47) = _
  generalize W4 m ρ c = X at h_v3 h_v6 h_v33 h_v34 ⊢
  dsimp only [hostOps1]
  after_results_simp
  rw [h_v3, h_v6, h_v33, h_v34]
  rfl

theorem W5_v48 (c : Dev nD) : W5 m ρ c (Proc.devRef .tc main_v48)
    = Cert.ReferenceIdeal.Read.val_main_v48 (F := Ideal) (m ((c : Thread nD τ).loc main_arg4)) := by
  have h_arg4 := W4_arg4 m ρ c
  show StableHlo.after hostOps1 (W4 m ρ c) (Proc.devRef .tc main_v48) = _
  generalize W4 m ρ c = X at h_arg4 ⊢
  dsimp only [hostOps1]
  after_results_simp
  rw [h_arg4]
  exact Cert.ReferenceIdeal.RefValue.v48_cast _ _

theorem W5_v3 (c : Dev nD) : W5 m ρ c (Proc.devRef .tc main_v3)
    = Cert.ReferenceIdeal.Read.val_main_v3 (F := Ideal) (m ((c : Thread nD τ).loc main_arg1)) := by
  have h_v3 := W4_v3 m ρ c
  show StableHlo.after hostOps1 (W4 m ρ c) (Proc.devRef .tc main_v3) = _
  generalize W4 m ρ c = X at h_v3 ⊢
  dsimp only [hostOps1]
  after_results_simp
  exact h_v3

theorem W5_v6 (c : Dev nD) : W5 m ρ c (Proc.devRef .tc main_v6)
    = Cert.ReferenceIdeal.Read.val_main_v6 (F := Ideal) (m ((c : Thread nD τ).loc main_arg1)) := by
  have h_v6 := W4_v6 m ρ c
  show StableHlo.after hostOps1 (W4 m ρ c) (Proc.devRef .tc main_v6) = _
  generalize W4 m ρ c = X at h_v6 ⊢
  dsimp only [hostOps1]
  after_results_simp
  exact h_v6

theorem W5_v33 (c : Dev nD) : W5 m ρ c (Proc.devRef .tc main_v33)
    = Cert.ReferenceIdeal.Read.val_main_v33 (F := Ideal) (m ((c : Thread nD τ).loc main_arg1)) (m ((c : Thread nD τ).loc main_arg2)) := by
  have h_v33 := W4_v33 m ρ c
  show StableHlo.after hostOps1 (W4 m ρ c) (Proc.devRef .tc main_v33) = _
  generalize W4 m ρ c = X at h_v33 ⊢
  dsimp only [hostOps1]
  after_results_simp
  exact h_v33

theorem W5_arg5 (c : Dev nD) : W5 m ρ c (Proc.devRef .tc main_arg5)
    = (m ((c : Thread nD τ).loc main_arg5)) := by
  have h_arg5 := W4_arg5 m ρ c
  show StableHlo.after hostOps1 (W4 m ρ c) (Proc.devRef .tc main_arg5) = _
  generalize W4 m ρ c = X at h_arg5 ⊢
  dsimp only [hostOps1]
  after_results_simp
  exact h_arg5

theorem W5_arg6 (c : Dev nD) : W5 m ρ c (Proc.devRef .tc main_arg6)
    = (m ((c : Thread nD τ).loc main_arg6)) := by
  have h_arg6 := W4_arg6 m ρ c
  show StableHlo.after hostOps1 (W4 m ρ c) (Proc.devRef .tc main_arg6) = _
  generalize W4 m ρ c = X at h_arg6 ⊢
  dsimp only [hostOps1]
  after_results_simp
  exact h_arg6

theorem W5_arg7 (c : Dev nD) : W5 m ρ c (Proc.devRef .tc main_arg7)
    = (m ((c : Thread nD τ).loc main_arg7)) := by
  have h_arg7 := W4_arg7 m ρ c
  show StableHlo.after hostOps1 (W4 m ρ c) (Proc.devRef .tc main_arg7) = _
  generalize W4 m ρ c = X at h_arg7 ⊢
  dsimp only [hostOps1]
  after_results_simp
  exact h_arg7

theorem W5_arg8 (c : Dev nD) : W5 m ρ c (Proc.devRef .tc main_arg8)
    = (m ((c : Thread nD τ).loc main_arg8)) := by
  have h_arg8 := W4_arg8 m ρ c
  show StableHlo.after hostOps1 (W4 m ρ c) (Proc.devRef .tc main_arg8) = _
  generalize W4 m ρ c = X at h_arg8 ⊢
  dsimp only [hostOps1]
  after_results_simp
  exact h_arg8

theorem W6_v49 (c : Dev nD) : W6 m ρ c (Proc.devRef .tc main_v49)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  refine (Cert.KernelIdeal.RegionValue.region1_out (V5 m ρ) c).trans ?_
  show Cert.Gcn.biasRelu (M := 100000) (N := 64) (W5 m ρ c (Proc.devRef .tc main_v47)) (W5 m ρ c (Proc.devRef .tc main_v48)) = _
  rw [W5_v47 m ρ c, W5_v48 m ρ c]
  exact (Cert.ReferenceIdeal.RefValue.v51_eq _ _ _ _ _).symm

theorem W6_v3 (c : Dev nD) : W6 m ρ c (Proc.devRef .tc main_v3)
    = Cert.ReferenceIdeal.Read.val_main_v3 (F := Ideal) (m ((c : Thread nD τ).loc main_arg1)) := by
  exact (W6_of_ne m ρ c main_v3 (by decide)).trans (W5_v3 m ρ c)

theorem W6_v6 (c : Dev nD) : W6 m ρ c (Proc.devRef .tc main_v6)
    = Cert.ReferenceIdeal.Read.val_main_v6 (F := Ideal) (m ((c : Thread nD τ).loc main_arg1)) := by
  exact (W6_of_ne m ρ c main_v6 (by decide)).trans (W5_v6 m ρ c)

theorem W6_v33 (c : Dev nD) : W6 m ρ c (Proc.devRef .tc main_v33)
    = Cert.ReferenceIdeal.Read.val_main_v33 (F := Ideal) (m ((c : Thread nD τ).loc main_arg1)) (m ((c : Thread nD τ).loc main_arg2)) := by
  exact (W6_of_ne m ρ c main_v33 (by decide)).trans (W5_v33 m ρ c)

theorem W6_arg5 (c : Dev nD) : W6 m ρ c (Proc.devRef .tc main_arg5)
    = (m ((c : Thread nD τ).loc main_arg5)) := by
  exact (W6_of_ne m ρ c main_arg5 (by decide)).trans (W5_arg5 m ρ c)

theorem W6_arg6 (c : Dev nD) : W6 m ρ c (Proc.devRef .tc main_arg6)
    = (m ((c : Thread nD τ).loc main_arg6)) := by
  exact (W6_of_ne m ρ c main_arg6 (by decide)).trans (W5_arg6 m ρ c)

theorem W6_arg7 (c : Dev nD) : W6 m ρ c (Proc.devRef .tc main_arg7)
    = (m ((c : Thread nD τ).loc main_arg7)) := by
  exact (W6_of_ne m ρ c main_arg7 (by decide)).trans (W5_arg7 m ρ c)

theorem W6_arg8 (c : Dev nD) : W6 m ρ c (Proc.devRef .tc main_arg8)
    = (m ((c : Thread nD τ).loc main_arg8)) := by
  exact (W6_of_ne m ρ c main_arg8 (by decide)).trans (W5_arg8 m ρ c)

theorem W7_v50 (c : Dev nD) : W7 m ρ c (Proc.devRef .tc main_v50)
    = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Cert.KernelIdeal.RegionValue.region2_out (V6 m ρ) c).trans ?_
  show Cert.Gcn.dense (M := 100000) (K := 64) (N := 64) (W6 m ρ c (Proc.devRef .tc main_v49)) (W6 m ρ c (Proc.devRef .tc main_arg5)) = _
  rw [W6_v49 m ρ c, W6_arg5 m ρ c]
  exact (Cert.ReferenceIdeal.RefValue.v52_eq _ _ _ _ _ _).symm

theorem W7_v3 (c : Dev nD) : W7 m ρ c (Proc.devRef .tc main_v3)
    = Cert.ReferenceIdeal.Read.val_main_v3 (F := Ideal) (m ((c : Thread nD τ).loc main_arg1)) := by
  exact (W7_of_ne m ρ c main_v3 (by decide)).trans (W6_v3 m ρ c)

theorem W7_v6 (c : Dev nD) : W7 m ρ c (Proc.devRef .tc main_v6)
    = Cert.ReferenceIdeal.Read.val_main_v6 (F := Ideal) (m ((c : Thread nD τ).loc main_arg1)) := by
  exact (W7_of_ne m ρ c main_v6 (by decide)).trans (W6_v6 m ρ c)

theorem W7_v33 (c : Dev nD) : W7 m ρ c (Proc.devRef .tc main_v33)
    = Cert.ReferenceIdeal.Read.val_main_v33 (F := Ideal) (m ((c : Thread nD τ).loc main_arg1)) (m ((c : Thread nD τ).loc main_arg2)) := by
  exact (W7_of_ne m ρ c main_v33 (by decide)).trans (W6_v33 m ρ c)

theorem W7_arg6 (c : Dev nD) : W7 m ρ c (Proc.devRef .tc main_arg6)
    = (m ((c : Thread nD τ).loc main_arg6)) := by
  exact (W7_of_ne m ρ c main_arg6 (by decide)).trans (W6_arg6 m ρ c)

theorem W7_arg7 (c : Dev nD) : W7 m ρ c (Proc.devRef .tc main_arg7)
    = (m ((c : Thread nD τ).loc main_arg7)) := by
  exact (W7_of_ne m ρ c main_arg7 (by decide)).trans (W6_arg7 m ρ c)

theorem W7_arg8 (c : Dev nD) : W7 m ρ c (Proc.devRef .tc main_arg8)
    = (m ((c : Thread nD τ).loc main_arg8)) := by
  exact (W7_of_ne m ρ c main_arg8 (by decide)).trans (W6_arg8 m ρ c)

theorem W8_v63 (c : Dev nD) : W8 m ρ c (Proc.devRef .tc main_v63)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h_v3 := W7_v3 m ρ c
  have h_v6 := W7_v6 m ρ c
  have h_v33 := W7_v33 m ρ c
  have h_v50 := W7_v50 m ρ c
  show StableHlo.after hostOps3 (W7 m ρ c) (Proc.devRef .tc main_v63) = _
  generalize W7 m ρ c = X at h_v3 h_v6 h_v33 h_v50 ⊢
  dsimp only [hostOps3]
  after_results_simp
  rw [h_v3, h_v6, h_v33, h_v50]
  rfl

theorem W8_v64 (c : Dev nD) : W8 m ρ c (Proc.devRef .tc main_v64)
    = Cert.ReferenceIdeal.Read.val_main_v66 (F := Ideal) (m ((c : Thread nD τ).loc main_arg6)) := by
  have h_arg6 := W7_arg6 m ρ c
  show StableHlo.after hostOps3 (W7 m ρ c) (Proc.devRef .tc main_v64) = _
  generalize W7 m ρ c = X at h_arg6 ⊢
  dsimp only [hostOps3]
  after_results_simp
  rw [h_arg6]
  exact Cert.ReferenceIdeal.RefValue.v66_cast _ _

theorem W8_v3 (c : Dev nD) : W8 m ρ c (Proc.devRef .tc main_v3)
    = Cert.ReferenceIdeal.Read.val_main_v3 (F := Ideal) (m ((c : Thread nD τ).loc main_arg1)) := by
  have h_v3 := W7_v3 m ρ c
  show StableHlo.after hostOps3 (W7 m ρ c) (Proc.devRef .tc main_v3) = _
  generalize W7 m ρ c = X at h_v3 ⊢
  dsimp only [hostOps3]
  after_results_simp
  exact h_v3

theorem W8_v6 (c : Dev nD) : W8 m ρ c (Proc.devRef .tc main_v6)
    = Cert.ReferenceIdeal.Read.val_main_v6 (F := Ideal) (m ((c : Thread nD τ).loc main_arg1)) := by
  have h_v6 := W7_v6 m ρ c
  show StableHlo.after hostOps3 (W7 m ρ c) (Proc.devRef .tc main_v6) = _
  generalize W7 m ρ c = X at h_v6 ⊢
  dsimp only [hostOps3]
  after_results_simp
  exact h_v6

theorem W8_v33 (c : Dev nD) : W8 m ρ c (Proc.devRef .tc main_v33)
    = Cert.ReferenceIdeal.Read.val_main_v33 (F := Ideal) (m ((c : Thread nD τ).loc main_arg1)) (m ((c : Thread nD τ).loc main_arg2)) := by
  have h_v33 := W7_v33 m ρ c
  show StableHlo.after hostOps3 (W7 m ρ c) (Proc.devRef .tc main_v33) = _
  generalize W7 m ρ c = X at h_v33 ⊢
  dsimp only [hostOps3]
  after_results_simp
  exact h_v33

theorem W8_arg7 (c : Dev nD) : W8 m ρ c (Proc.devRef .tc main_arg7)
    = (m ((c : Thread nD τ).loc main_arg7)) := by
  have h_arg7 := W7_arg7 m ρ c
  show StableHlo.after hostOps3 (W7 m ρ c) (Proc.devRef .tc main_arg7) = _
  generalize W7 m ρ c = X at h_arg7 ⊢
  dsimp only [hostOps3]
  after_results_simp
  exact h_arg7

theorem W8_arg8 (c : Dev nD) : W8 m ρ c (Proc.devRef .tc main_arg8)
    = (m ((c : Thread nD τ).loc main_arg8)) := by
  have h_arg8 := W7_arg8 m ρ c
  show StableHlo.after hostOps3 (W7 m ρ c) (Proc.devRef .tc main_arg8) = _
  generalize W7 m ρ c = X at h_arg8 ⊢
  dsimp only [hostOps3]
  after_results_simp
  exact h_arg8

theorem W9_v65 (c : Dev nD) : W9 m ρ c (Proc.devRef .tc main_v65)
    = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  refine (Cert.KernelIdeal.RegionValue.region3_out (V8 m ρ) c).trans ?_
  show Cert.Gcn.biasRelu (M := 100000) (N := 64) (W8 m ρ c (Proc.devRef .tc main_v63)) (W8 m ρ c (Proc.devRef .tc main_v64)) = _
  rw [W8_v63 m ρ c, W8_v64 m ρ c]
  exact (Cert.ReferenceIdeal.RefValue.v69_eq _ _ _ _ _ _ _).symm

theorem W9_v3 (c : Dev nD) : W9 m ρ c (Proc.devRef .tc main_v3)
    = Cert.ReferenceIdeal.Read.val_main_v3 (F := Ideal) (m ((c : Thread nD τ).loc main_arg1)) := by
  exact (W9_of_ne m ρ c main_v3 (by decide)).trans (W8_v3 m ρ c)

theorem W9_v6 (c : Dev nD) : W9 m ρ c (Proc.devRef .tc main_v6)
    = Cert.ReferenceIdeal.Read.val_main_v6 (F := Ideal) (m ((c : Thread nD τ).loc main_arg1)) := by
  exact (W9_of_ne m ρ c main_v6 (by decide)).trans (W8_v6 m ρ c)

theorem W9_v33 (c : Dev nD) : W9 m ρ c (Proc.devRef .tc main_v33)
    = Cert.ReferenceIdeal.Read.val_main_v33 (F := Ideal) (m ((c : Thread nD τ).loc main_arg1)) (m ((c : Thread nD τ).loc main_arg2)) := by
  exact (W9_of_ne m ρ c main_v33 (by decide)).trans (W8_v33 m ρ c)

theorem W9_arg7 (c : Dev nD) : W9 m ρ c (Proc.devRef .tc main_arg7)
    = (m ((c : Thread nD τ).loc main_arg7)) := by
  exact (W9_of_ne m ρ c main_arg7 (by decide)).trans (W8_arg7 m ρ c)

theorem W9_arg8 (c : Dev nD) : W9 m ρ c (Proc.devRef .tc main_arg8)
    = (m ((c : Thread nD τ).loc main_arg8)) := by
  exact (W9_of_ne m ρ c main_arg8 (by decide)).trans (W8_arg8 m ρ c)

theorem W10_v66 (c : Dev nD) : W10 m ρ c (Proc.devRef .tc main_v66)
    = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Cert.KernelIdeal.RegionValue.region4_out (V9 m ρ) c).trans ?_
  show Cert.Gcn.dense (M := 100000) (K := 64) (N := 1) (W9 m ρ c (Proc.devRef .tc main_v65)) (W9 m ρ c (Proc.devRef .tc main_arg7)) = _
  rw [W9_v65 m ρ c, W9_arg7 m ρ c]
  exact (Cert.ReferenceIdeal.RefValue.v70_eq _ _ _ _ _ _ _ _).symm

theorem W10_v3 (c : Dev nD) : W10 m ρ c (Proc.devRef .tc main_v3)
    = Cert.ReferenceIdeal.Read.val_main_v3 (F := Ideal) (m ((c : Thread nD τ).loc main_arg1)) := by
  exact (W10_of_ne m ρ c main_v3 (by decide)).trans (W9_v3 m ρ c)

theorem W10_v6 (c : Dev nD) : W10 m ρ c (Proc.devRef .tc main_v6)
    = Cert.ReferenceIdeal.Read.val_main_v6 (F := Ideal) (m ((c : Thread nD τ).loc main_arg1)) := by
  exact (W10_of_ne m ρ c main_v6 (by decide)).trans (W9_v6 m ρ c)

theorem W10_v33 (c : Dev nD) : W10 m ρ c (Proc.devRef .tc main_v33)
    = Cert.ReferenceIdeal.Read.val_main_v33 (F := Ideal) (m ((c : Thread nD τ).loc main_arg1)) (m ((c : Thread nD τ).loc main_arg2)) := by
  exact (W10_of_ne m ρ c main_v33 (by decide)).trans (W9_v33 m ρ c)

theorem W10_arg8 (c : Dev nD) : W10 m ρ c (Proc.devRef .tc main_arg8)
    = (m ((c : Thread nD τ).loc main_arg8)) := by
  exact (W10_of_ne m ρ c main_arg8 (by decide)).trans (W9_arg8 m ρ c)

theorem W11_v78 (c : Dev nD) : W11 m ρ c (Proc.devRef .tc main_v78)
    = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h_v3 := W10_v3 m ρ c
  have h_v6 := W10_v6 m ρ c
  have h_v33 := W10_v33 m ρ c
  have h_v66 := W10_v66 m ρ c
  show StableHlo.after hostOps5 (W10 m ρ c) (Proc.devRef .tc main_v78) = _
  generalize W10 m ρ c = X at h_v3 h_v6 h_v33 h_v66 ⊢
  dsimp only [hostOps5]
  after_results_simp
  rw [h_v3, h_v6, h_v33, h_v66]
  rfl

theorem W11_v79 (c : Dev nD) : W11 m ρ c (Proc.devRef .tc main_v79)
    = Cert.ReferenceIdeal.Read.val_main_v83 (F := Ideal) (m ((c : Thread nD τ).loc main_arg8)) := by
  have h_arg8 := W10_arg8 m ρ c
  show StableHlo.after hostOps5 (W10 m ρ c) (Proc.devRef .tc main_v79) = _
  generalize W10 m ρ c = X at h_arg8 ⊢
  dsimp only [hostOps5]
  after_results_simp
  rw [h_arg8]
  exact Cert.ReferenceIdeal.RefValue.v83_cast _ _

theorem W12_v80 (c : Dev nD) : W12 m ρ c (Proc.devRef .tc main_v80)
    = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  refine (Cert.KernelIdeal.RegionValue.region5_out (V11 m ρ) c).trans ?_
  show Cert.Gcn.biasRelu (M := 100000) (N := 1) (W11 m ρ c (Proc.devRef .tc main_v78)) (W11 m ρ c (Proc.devRef .tc main_v79)) = _
  rw [W11_v78 m ρ c, W11_v79 m ρ c]
  exact (Cert.ReferenceIdeal.RefValue.v86_eq _ _ _ _ _ _ _ _ _).symm

end Cert.KernelIdeal.Chain

end
-- ==== Proof.lean ====
/-
  The certificate of a three-layer graph convolution whose dense steps run as tiled kernels.

  Both programs build the same normalized edge list on the host (self-loops appended, in-degrees by a scatter-add,
  the inverse square root of the degree where it is positive), and then apply three layers: multiply the node features
  by a weight matrix, gather the rows at each edge's source, scale by the edge's norm, scatter-add into the edge's
  target, add a bias row and take the maximum with zero. The kernel program performs the matrix product and the
  bias-and-maximum of each layer in regions tiled over the 100000 rows, ten blocks of 10000 rows each, after recasting
  the product's operands to a narrower float format; the reference performs them as whole-array host operations. At the
  ideal values a change of float format is the identity and a matrix product is its exact finite sum, so block t of a
  product region's output is block t of the whole product (an entry depends on one row of the left operand and one
  column of the right, and the blocks partition the rows), and likewise for the bias-and-maximum, which is entrywise up to
  the one bias row. Every other host operation is literally the same on both sides and is carried through unopened. No
  law used here needs a finite input: only exact sums, one addition and one maximum per entry are compared, never
  rearranged.

  The modules: `Spec` states the two whole-array functions; `Region0` … `Region5` show each region's output array is
  that function of its two input arrays, for any contents at the region's entry; `RefStages` shows the reference's six
  corresponding stages are the same functions and that a bias vector recast as a one-row matrix is its broadcast along
  axis 1; `RunValue` names the result array in the kernel program's run; `Chain` walks that run boundary by boundary,
  identifying every live buffer with the reference's stage of the same value.
-/
import proofs.«132465_j2911987826950_1_alg».proof.Defs
import proofs.«132465_j2911987826950_1_alg».proof.Proof.Gen.Kernel
import proofs.«132465_j2911987826950_1_alg».proof.Proof.Gen.Kernel.Skeleton
import proofs.«132465_j2911987826950_1_alg».proof.Proof.Gen.Kernel.Launch
import proofs.«132465_j2911987826950_1_alg».proof.Proof.Gen.Kernel.Points
import proofs.«132465_j2911987826950_1_alg».proof.Proof.Gen.Kernel.Frame
import proofs.«132465_j2911987826950_1_alg».proof.Proof.Gen.KernelIdeal
import proofs.«132465_j2911987826950_1_alg».proof.Proof.Gen.KernelIdeal.Skeleton
import proofs.«132465_j2911987826950_1_alg».proof.Proof.Gen.KernelIdeal.Launch
import proofs.«132465_j2911987826950_1_alg».proof.Proof.Gen.KernelIdeal.Points
import proofs.«132465_j2911987826950_1_alg».proof.Proof.Gen.KernelIdeal.Frame
import proofs.«132465_j2911987826950_1_alg».proof.Proof.Gen.ReferenceIdeal
import proofs.«132465_j2911987826950_1_alg».proof.Proof.Gen.ReferenceIdeal.Run
import proofs.«132465_j2911987826950_1_alg».proof.Proof.Gen.ReferenceIdeal.Read
import proofs.«132465_j2911987826950_1_alg».proof.Proof.Gen.Pre_finite_inputs
import proofs.«132465_j2911987826950_1_alg».proof.Proof.RunValue
import proofs.«132465_j2911987826950_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories that agree on the arguments both idealized programs end with the same result array: the kernel
    program's last boundary contents at the result buffer are the reference's last stage of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v80),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq]
  obtain ⟨h0, h1, h2, h3, h4, h5, h6, h7, h8⟩ := hagree c
  rw [h0, h1, h2, h3, h4, h5, h6, h7, h8]
  exact (Cert.KernelIdeal.Chain.W12_v80 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
